-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S16x4096 : Shape := ⟨2, ![16, 4096]⟩
abbrev S16 : Shape := ⟨1, ![16]⟩
abbrev S14336x16 : Shape := ⟨2, ![14336, 16]⟩
abbrev S14336 : Shape := ⟨1, ![14336]⟩
abbrev S16x14336 : Shape := ⟨2, ![16, 14336]⟩
abbrev S4096x16 : Shape := ⟨2, ![4096, 16]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S16 : S_.BroadcastsInDim S16 (![] : Fin 0 → Fin S16.rank)
  reducesTo_S16_S_d0 : S16.ReducesTo [0] S_
  bcast_S_S14336x16 : S_.BroadcastsInDim S14336x16 (![] : Fin 0 → Fin S14336x16.rank)
  reducesTo_S14336x16_S_d0_1 : S14336x16.ReducesTo [0, 1] S_
  bcast_S_S14336 : S_.BroadcastsInDim S14336 (![] : Fin 0 → Fin S14336.rank)
  reducesTo_S14336_S_d0 : S14336.ReducesTo [0] S_
  bcast_S_S16x14336 : S_.BroadcastsInDim S16x14336 (![] : Fin 0 → Fin S16x14336.rank)
  reducesTo_S16x14336_S_d0_1 : S16x14336.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_arg11 : FVec F S4096x16 .f32) (main_arg12 : FVec F S4096 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S4096x16 .f32 := Host.absf main_arg11
  let main_cst_20 : FVec F S_ .f32 := constant S_ .f32 0x7F800000#32
  let main_v55 : FVec F S4096x16 .f32 := broadcastInDim S4096x16 ![] bcast_S_S4096x16 main_cst_20
  let main_v56 : IVec S4096x16 1 := cmpf .olt main_v54 main_v55
  let main_c_21 : IVec S_ 1 := constantI S_ 1 1#1
  let main_v57 : IVec S_ 1 := (fun x v => Host.reduce IntOp.andi x v reducesTo_S4096x16_S_d0_1 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  main_v63

def fn_part2 {F : FTy → Type} [FloatOps F] (main_arg7 : FVec F S14336x16 .f32) (main_arg8 : FVec F S14336 .f32) (main_arg9 : FVec F S16x14336 .f32) (main_arg10 : FVec F S16 .f32) (main_arg11 : FVec F S4096x16 .f32) (main_arg12 : FVec F S4096 .f32) (main_v33 : IVec S_ 1) : IVec S_ 1 :=
  let main_v34 : FVec F S14336x16 .f32 := Host.absf main_arg7
  let main_cst_12 : FVec F S_ .f32 := constant S_ .f32 0x7F800000#32
  let main_v35 : FVec F S14336x16 .f32 := broadcastInDim S14336x16 ![] bcast_S_S14336x16 main_cst_12
  let main_v36 : IVec S14336x16 1 := cmpf .olt main_v34 main_v35
  let main_c_13 : IVec S_ 1 := constantI S_ 1 1#1
  let main_v37 : IVec S_ 1 := (fun x v => Host.reduce IntOp.andi x v reducesTo_S14336x16_S_d0_1 h_S_) main_v36 main_c_13
  let main_v38 : IVec S_ 1 := andi main_v33 main_v37
  let main_v39 : FVec F S14336 .f32 := Host.absf main_arg8
  let main_cst_14 : FVec F S_ .f32 := constant S_ .f32 0x7F800000#32
  let main_v40 : FVec F S14336 .f32 := broadcastInDim S14336 ![] bcast_S_S14336 main_cst_14
  let main_v41 : IVec S14336 1 := cmpf .olt main_v39 main_v40
  let main_c_15 : IVec S_ 1 := constantI S_ 1 1#1
  let main_v42 : IVec S_ 1 := (fun x v => Host.reduce IntOp.andi x v reducesTo_S14336_S_d0 h_S_) main_v41 main_c_15
  let main_v43 : IVec S_ 1 := andi main_v38 main_v42
  let main_v44 : FVec F S16x14336 .f32 := Host.absf main_arg9
  let main_cst_16 : FVec F S_ .f32 := constant S_ .f32 0x7F800000#32
  let main_v45 : FVec F S16x14336 .f32 := broadcastInDim S16x14336 ![] bcast_S_S16x14336 main_cst_16
  let main_v46 : IVec S16x14336 1 := cmpf .olt main_v44 main_v45
  let main_c_17 : IVec S_ 1 := constantI S_ 1 1#1
  let main_v47 : IVec S_ 1 := (fun x v => Host.reduce IntOp.andi x v reducesTo_S16x14336_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_v48 main_v49 main_v50

def fn_part1 {F : FTy → Type} [FloatOps F] (main_arg4 : FVec F S14336 .f32) (main_arg5 : FVec F S16x4096 .f32) (main_arg6 : FVec F S16 .f32) (main_arg7 : FVec F S14336x16 .f32) (main_arg8 : FVec F S14336 .f32) (main_arg9 : FVec F S16x14336 .f32) (main_arg10 : FVec F S16 .f32) (main_arg11 : FVec F S4096x16 .f32) (main_arg12 : FVec F S4096 .f32) (main_v13 : IVec S_ 1) (main_v16 : IVec S14336x16 1) : IVec S_ 1 :=
  let main_c_5 : IVec S_ 1 := constantI S_ 1 1#1
  let main_v17 : IVec S_ 1 := (fun x v => Host.reduce IntOp.andi x v reducesTo_S14336x16_S_d0_1 h_S_) main_v16 main_c_5
  let main_v18 : IVec S_ 1 := andi main_v13 main_v17
  let main_v19 : FVec F S14336 .f32 := Host.absf main_arg4
  let main_cst_6 : FVec F S_ .f32 := constant S_ .f32 0x7F800000#32
  let main_v20 : FVec F S14336 .f32 := broadcastInDim S14336 ![] bcast_S_S14336 main_cst_6
  let main_v21 : IVec S14336 1 := cmpf .olt main_v19 main_v20
  let main_c_7 : IVec S_ 1 := constantI S_ 1 1#1
  let main_v22 : IVec S_ 1 := (fun x v => Host.reduce IntOp.andi x v reducesTo_S14336_S_d0 h_S_) main_v21 main_c_7
  let main_v23 : IVec S_ 1 := andi main_v18 main_v22
  let main_v24 : FVec F S16x4096 .f32 := Host.absf main_arg5
  let main_cst_8 : FVec F S_ .f32 := constant S_ .f32 0x7F800000#32
  let main_v25 : FVec F S16x4096 .f32 := broadcastInDim S16x4096 ![] bcast_S_S16x4096 main_cst_8
  let main_v26 : IVec S16x4096 1 := cmpf .olt main_v24 main_v25
  let main_c_9 : IVec S_ 1 := constantI S_ 1 1#1
  let main_v27 : IVec S_ 1 := (fun x v => Host.reduce IntOp.andi x v reducesTo_S16x4096_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x4096 .f32) (main_arg1 : FVec F S16x4096 .f32) (main_arg2 : FVec F S16 .f32) (main_arg3 : FVec F S14336x16 .f32) (main_arg4 : FVec F S14336 .f32) (main_arg5 : FVec F S16x4096 .f32) (main_arg6 : FVec F S16 .f32) (main_arg7 : FVec F S14336x16 .f32) (main_arg8 : FVec F S14336 .f32) (main_arg9 : FVec F S16x14336 .f32) (main_arg10 : FVec F S16 .f32) (main_arg11 : FVec F S4096x16 .f32) (main_arg12 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S14336x16 .f32 := Host.absf main_arg3
  let main_cst_4 : FVec F S_ .f32 := constant S_ .f32 0x7F800000#32
  let main_v15 : FVec F S14336x16 .f32 := broadcastInDim S14336x16 ![] bcast_S_S14336x16 main_cst_4
  let main_v16 : IVec S14336x16 1 := cmpf .olt main_v14 main_v15
  fn_part1 (F := F) main_arg4 main_arg5 main_arg6 main_arg7 main_arg8 main_arg9 main_arg10 main_arg11 main_arg12 main_v13 main_v16
-- ==== Kernel.lean ====
abbrev S4096x4096 : Shape := ⟨2, ![4096, 4096]⟩
abbrev S16x4096 : Shape := ⟨2, ![16, 4096]⟩
abbrev S16 : Shape := ⟨1, ![16]⟩
abbrev S14336x16 : Shape := ⟨2, ![14336, 16]⟩
abbrev S14336 : Shape := ⟨1, ![14336]⟩
abbrev S16x14336 : Shape := ⟨2, ![16, 14336]⟩
abbrev S4096x16 : Shape := ⟨2, ![4096, 16]⟩
abbrev S4096 : Shape := ⟨1, ![4096]⟩
abbrev S1x16 : Shape := ⟨2, ![1, 16]⟩
abbrev S1x14336 : Shape := ⟨2, ![1, 14336]⟩
abbrev S1x4096 : Shape := ⟨2, ![1, 4096]⟩
abbrev S256x4096 : Shape := ⟨2, ![256, 4096]⟩
abbrev S16x1024 : Shape := ⟨2, ![16, 1024]⟩
abbrev S1x1024 : Shape := ⟨2, ![1, 1024]⟩
abbrev S1024x16 : Shape := ⟨2, ![1024, 16]⟩
abbrev S256x16 : Shape := ⟨2, ![256, 16]⟩
abbrev S256x1024 : Shape := ⟨2, ![256, 1024]⟩

abbrev nBuf : Space → Nat
  | .hbm => 26
  | .vmem => 24
  | .smem => 0
  | _ => 0

abbrev bufTy : (tb : Table) → Fin (tcTables nBuf tb) → BufTy
  | .hbm, ⟨0, _⟩ => ⟨S4096x4096, .f32⟩
  | .hbm, ⟨1, _⟩ => ⟨S16x4096, .f32⟩
  | .hbm, ⟨2, _⟩ => ⟨S16, .f32⟩
  | .hbm, ⟨3, _⟩ => ⟨S14336x16, .f32⟩
  | .hbm, ⟨4, _⟩ => ⟨S14336, .f32⟩
  | .hbm, ⟨5, _⟩ => ⟨S16x4096, .f32⟩
  | .hbm, ⟨6, _⟩ => ⟨S16, .f32⟩
  | .hbm, ⟨7, _⟩ => ⟨S14336x16, .f32⟩
  | .hbm, ⟨8, _⟩ => ⟨S14336, .f32⟩
  | .hbm, ⟨9, _⟩ => ⟨S16x14336, .f32⟩
  | .hbm, ⟨10, _⟩ => ⟨S16, .f32⟩
  | .hbm, ⟨11, _⟩ => ⟨S4096x16, .f32⟩
  | .hbm, ⟨12, _⟩ => ⟨S4096, .f32⟩
  | .hbm, ⟨13, _⟩ => ⟨S4096x16, .f32⟩
  | .hbm, ⟨14, _⟩ => ⟨S1x16, .f32⟩
  | .hbm, ⟨15, _⟩ => ⟨S16x14336, .f32⟩
  | .hbm, ⟨16, _⟩ => ⟨S1x14336, .f32⟩
  | .hbm, ⟨17, _⟩ => ⟨S4096x16, .f32⟩
  | .hbm, ⟨18, _⟩ => ⟨S1x16, .f32⟩
  | .hbm, ⟨19, _⟩ => ⟨S16x14336, .f32⟩
  | .hbm, ⟨20, _⟩ => ⟨S1x14336, .f32⟩
  | .hbm, ⟨21, _⟩ => ⟨S14336x16, .f32⟩
  | .hbm, ⟨22, _⟩ => ⟨S1x16, .f32⟩
  | .hbm, ⟨23, _⟩ => ⟨S16x4096, .f32⟩
  | .hbm, ⟨24, _⟩ => ⟨S1x4096, .f32⟩
  | .hbm, ⟨25, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S4096x16, .f32⟩
  | .local _ .vmem, ⟨3, _⟩ => ⟨S1x16, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1x1024, .f32⟩
  | .local _ .vmem, ⟨8, _⟩ => ⟨S4096x16, .f32⟩
  | .local _ .vmem, ⟨9, _⟩ => ⟨S1x16, .f32⟩
  | .local _ .vmem, ⟨10, _⟩ => ⟨S16x1024, .f32⟩
  | .local _ .vmem, ⟨11, _⟩ => ⟨S16x1024, .f32⟩
  | .local _ .vmem, ⟨12, _⟩ => ⟨S1x1024, .f32⟩
  | .local _ .vmem, ⟨13, _⟩ => ⟨S1x1024, .f32⟩
  | .local _ .vmem, ⟨14, _⟩ => ⟨S1024x16, .f32⟩
  | .local _ .vmem, ⟨15, _⟩ => ⟨S1024x16, .f32⟩
  | .local _ .vmem, ⟨16, _⟩ => ⟨S1x16, .f32⟩
  | .local _ .vmem, ⟨17, _⟩ => ⟨S16x4096, .f32⟩
  | .local _ .vmem, ⟨18, _⟩ => ⟨S1x4096, .f32⟩
  | .local _ .vmem, ⟨19, _⟩ => ⟨S256x4096, .f32⟩
  | .local _ .vmem, ⟨20, _⟩ => ⟨S256x4096, .f32⟩
  | .local _ .vmem, ⟨21, _⟩ => ⟨S256x16, .f32⟩
  | .local _ .vmem, ⟨22, _⟩ => ⟨S256x16, .f32⟩
  | .local _ .vmem, ⟨23, _⟩ => ⟨S256x16, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![16, 14], ![false, false]⟩

def k0_cond2 (i : grid0.Coords) : BitVec 1 :=
  let arg1 : BitVec 32 := BitVec.ofNat 32 (i 1).val
  let c13_i32 : BitVec 32 := 13#32
  let v40 : BitVec 1 := Scalar.cmpi .eq arg1 c13_i32
  let v41 : BitVec 32 := Scalar.extui v40
  let c0_i32_22 : BitVec 32 := 0#32
  let v42 : BitVec 1 := Scalar.cmpi .ne v41 c0_i32_22
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4096x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

class Facts₀ : Prop where
  transposes_S16x4096_S4096x16_1_0 : S16x4096.Transposes [1, 0] S4096x16
  shapeCasts_S16_S1x16 : S16.ShapeCasts S1x16
  transposes_S14336x16_S16x14336_1_0 : S14336x16.Transposes [1, 0] S16x14336
  shapeCasts_S14336_S1x14336 : S14336.ShapeCasts S1x14336
  transposes_S16x14336_S14336x16_1_0 : S16x14336.Transposes [1, 0] S14336x16
  transposes_S4096x16_S16x4096_1_0 : S4096x16.Transposes [1, 0] S16x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S256x4096_S4096x16_S256x16_1_0_0_1_n_n_wf : DotDims.WF S256x4096 S4096x16 S256x16 [1] [0] [0] [1] [] []
  dot_S256x16_S16x1024_S256x1024_1_0_0_1_n_n_wf : DotDims.WF S256x16 S16x1024 S256x1024 [1] [0] [0] [1] [] []
  dot_S256x1024_S1024x16_S256x16_1_0_0_1_n_n_wf : DotDims.WF S256x1024 S1024x16 S256x16 [1] [0] [0] [1] [] []
  dot_S256x16_S16x4096_S256x4096_1_0_0_1_n_n_wf : DotDims.WF S256x16 S16x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S4096x16.size a
  hwx0_1 : ∀ i : grid0.Coords, EltTy.bits .f32 = 32 ∨ (Rect.block (s := S4096x16) S4096x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x14336.size a
  hwx0_3 : ∀ i : grid0.Coords, EltTy.bits .f32 = 32 ∨ (Rect.block (s := S16x14336) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x14336.size a
  hwx0_4 : ∀ i : grid0.Coords, EltTy.bits .f32 = 32 ∨ (Rect.block (s := S1x14336) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x16.size a ≤ S4096x16.size a
  hwx0_5 : ∀ i : grid0.Coords, EltTy.bits .f32 = 32 ∨ (Rect.block (s := S4096x16) S4096x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x1024.size a ≤ S16x14336.size a
  hwx0_7 : ∀ i : grid0.Coords, EltTy.bits .f32 = 32 ∨ (Rect.block (s := S16x14336) S16x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x14336.size a
  hwx0_8 : ∀ i : grid0.Coords, EltTy.bits .f32 = 32 ∨ (Rect.block (s := S1x14336) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x16.size a ≤ S14336x16.size a
  hwx0_9 : ∀ i : grid0.Coords, EltTy.bits .f32 = 32 ∨ (Rect.block (s := S14336x16) S1024x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16x4096.size a ≤ S16x4096.size a
  hwx0_11 : ∀ i : grid0.Coords, EltTy.bits .f32 = 32 ∨ (Rect.block (s := S16x4096) S16x4096.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x4096.size a ≤ S1x4096.size a
  hwx0_12 : ∀ i : grid0.Coords, EltTy.bits .f32 = 32 ∨ (Rect.block (s := S1x4096) S1x4096.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x4096.size a ≤ S4096x4096.size a
  hwx0_13 : ∀ i : grid0.Coords, EltTy.bits .f32 = 32 ∨ (Rect.block (s := S4096x4096) S256x4096.size (cc0_transform_13 i) (hinb0_13 i)).WholeWords (EltTy.packing .f32)

variable [Facts₀]

def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S256x16_S16x1024_S256x1024_1_0_0_1_n_n : DotDims S256x16 S16x1024 S256x1024 where
  lhsContracting := [1]
  rhsContracting := [0]
  lhsNonContracting := [0]
  rhsNonContracting := [1]
  lhsBatch := []
  rhsBatch := []
  wf := dot_S256x16_S16x1024_S256x1024_1_0_0_1_n_n_wf
def dot_S256x1024_S1024x16_S256x16_1_0_0_1_n_n : DotDims S256x1024 S1024x16 S256x16 where
  lhsContracting := [1]
  rhsContracting := [0]
  lhsNonContracting := [0]
  rhsNonContracting := [1]
  lhsBatch := []
  rhsBatch := []
  wf := dot_S256x1024_S1024x16_S256x16_1_0_0_1_n_n_wf
def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S16x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1024x16.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S16x4096.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x4096.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S256x4096.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond2 i == 1#1) | ⟨_ + 14, h⟩ => absurd h (Nat.not_lt.2 (Nat.le_add_left _ _))

class Facts : Prop extends Facts₀ where

variable [Facts]
-- ==== ReferenceIdeal.lean ====
abbrev S4096x4096 : Shape := ⟨2, ![4096, 4096]⟩
abbrev S16x4096 : Shape := ⟨2, ![16, 4096]⟩
abbrev S16 : Shape := ⟨1, ![16]⟩
abbrev S14336x16 : Shape := ⟨2, ![14336, 16]⟩
abbrev S14336 : Shape := ⟨1, ![14336]⟩
abbrev S16x14336 : Shape := ⟨2, ![16, 14336]⟩
abbrev S4096x16 : Shape := ⟨2, ![4096, 16]⟩
abbrev S4096 : Shape := ⟨1, ![4096]⟩
abbrev S1x16 : Shape := ⟨2, ![1, 16]⟩
abbrev S4096x14336 : Shape := ⟨2, ![4096, 14336]⟩
abbrev S1x14336 : Shape := ⟨2, ![1, 14336]⟩
abbrev S_ : Shape := ⟨0, ![]⟩
abbrev S1x4096 : Shape := ⟨2, ![1, 4096]⟩

abbrev nBuf : Space → Nat
  | .hbm => 62
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16x4096, .f32⟩
  | .hbm, ⟨2, _⟩ => ⟨S16, .f32⟩
  | .hbm, ⟨3, _⟩ => ⟨S14336x16, .f32⟩
  | .hbm, ⟨4, _⟩ => ⟨S14336, .f32⟩
  | .hbm, ⟨5, _⟩ => ⟨S16x4096, .f32⟩
  | .hbm, ⟨6, _⟩ => ⟨S16, .f32⟩
  | .hbm, ⟨7, _⟩ => ⟨S14336x16, .f32⟩
  | .hbm, ⟨8, _⟩ => ⟨S14336, .f32⟩
  | .hbm, ⟨9, _⟩ => ⟨S16x14336, .f32⟩
  | .hbm, ⟨10, _⟩ => ⟨S16, .f32⟩
  | .hbm, ⟨11, _⟩ => ⟨S4096x16, .f32⟩
  | .hbm, ⟨12, _⟩ => ⟨S4096, .f32⟩
  | .hbm, ⟨13, _⟩ => ⟨S4096x16, .f32⟩
  | .hbm, ⟨14, _⟩ => ⟨S4096x16, .f32⟩
  | .hbm, ⟨15, _⟩ => ⟨S1x16, .f32⟩
  | .hbm, ⟨16, _⟩ => ⟨S4096x16, .f32⟩
  | .hbm, ⟨17, _⟩ => ⟨S4096x16, .f32⟩
  | .hbm, ⟨18, _⟩ => ⟨S16x14336, .f32⟩
  | .hbm, ⟨19, _⟩ => ⟨S4096x14336, .f32⟩
  | .hbm, ⟨20, _⟩ => ⟨S1x14336, .f32⟩
  | .hbm, ⟨21, _⟩ => ⟨S4096x14336, .f32⟩
  | .hbm, ⟨22, _⟩ => ⟨S4096x14336, .f32⟩
  | .hbm, ⟨23, _⟩ => ⟨S_, .f32⟩
  | .hbm, ⟨24, _⟩ => ⟨S4096x14336, .f32⟩
  | .hbm, ⟨25, _⟩ => ⟨S4096x14336, .f32⟩
  | .hbm, ⟨26, _⟩ => ⟨S4096x16, .f32⟩
  | .hbm, ⟨27, _⟩ => ⟨S4096x16, .f32⟩
  | .hbm, ⟨28, _⟩ => ⟨S1x16, .f32⟩
  | .hbm, ⟨29, _⟩ => ⟨S4096x16, .f32⟩
  | .hbm, ⟨30, _⟩ => ⟨S4096x16, .f32⟩
  | .hbm, ⟨31, _⟩ => ⟨S16x14336, .f32⟩
  | .hbm, ⟨32, _⟩ => ⟨S4096x14336, .f32⟩
  | .hbm, ⟨33, _⟩ => ⟨S1x14336, .f32⟩
  | .hbm, ⟨34, _⟩ => ⟨S4096x14336, .f32⟩
  | .hbm, ⟨35, _⟩ => ⟨S4096x14336, .f32⟩
  | .hbm, ⟨36, _⟩ => ⟨S_, .f32⟩
  | .hbm, ⟨37, _⟩ => ⟨S4096x14336, .f32⟩
  | .hbm, ⟨38, _⟩ => ⟨S4096x14336, .f32⟩
  | .hbm, ⟨39, _⟩ => ⟨S4096x14336, .f32⟩
  | .hbm, ⟨40, _⟩ => ⟨S4096x14336, .f32⟩
  | .hbm, ⟨41, _⟩ => ⟨S_, .f32⟩
  | .hbm, ⟨42, _⟩ => ⟨S4096x14336, .f32⟩
  | .hbm, ⟨43, _⟩ => ⟨S4096x14336, .f32⟩
  | .hbm, ⟨44, _⟩ => ⟨S_, .f32⟩
  | .hbm, ⟨45, _⟩ => ⟨S4096x14336, .f32⟩
  | .hbm, ⟨46, _⟩ => ⟨S4096x14336, .f32⟩
  | .hbm, ⟨47, _⟩ => ⟨S4096x14336, .f32⟩
  | .hbm, ⟨48, _⟩ => ⟨S4096x14336, .f32⟩
  | .hbm, ⟨49, _⟩ => ⟨S14336x16, .f32⟩
  | .hbm, ⟨50, _⟩ => ⟨S4096x16, .f32⟩
  | .hbm, ⟨51, _⟩ => ⟨S1x16, .f32⟩
  | .hbm, ⟨52, _⟩ => ⟨S4096x16, .f32⟩
  | .hbm, ⟨53, _⟩ => ⟨S4096x16, .f32⟩
  | .hbm, ⟨54, _⟩ => ⟨S16x4096, .f32⟩
  | .hbm, ⟨55, _⟩ => ⟨S4096x4096, .f32⟩
  | .hbm, ⟨56, _⟩ => ⟨S1x4096, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096x4096, .f32⟩
  | .hbm, ⟨61, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_1 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  transposes_S16x4096_S4096x16_1_0 : S16x4096.Transposes [1, 0] S4096x16
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  transposes_S14336x16_S16x14336_1_0 : S14336x16.Transposes [1, 0] S16x14336
  bcast_S14336_S1x14336_1 : S14336.BroadcastsInDim S1x14336 (![1] : Fin 1 → Fin S1x14336.rank)
  bcast_S1x14336_S4096x14336_0_1 : S1x14336.BroadcastsInDim S4096x14336 (![0, 1] : Fin 2 → Fin S4096x14336.rank)
  bcast_S_S4096x14336 : S_.BroadcastsInDim S4096x14336 (![] : Fin 0 → Fin S4096x14336.rank)
  transposes_S16x14336_S14336x16_1_0 : S16x14336.Transposes [1, 0] S14336x16
  transposes_S4096x16_S16x4096_1_0 : S4096x16.Transposes [1, 0] S16x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x16_S4096x16_1_0_0_1_n_n_wf : DotDims.WF S4096x4096 S4096x16 S4096x16 [1] [0] [0] [1] [] []
  dot_S4096x16_S16x14336_S4096x14336_1_0_0_1_n_n_wf : DotDims.WF S4096x16 S16x14336 S4096x14336 [1] [0] [0] [1] [] []
  dot_S4096x14336_S14336x16_S4096x16_1_0_0_1_n_n_wf : DotDims.WF S4096x14336 S14336x16 S4096x16 [1] [0] [0] [1] [] []
  dot_S4096x16_S16x4096_S4096x4096_1_0_0_1_n_n_wf : DotDims.WF S4096x16 S16x4096 S4096x4096 [1] [0] [0] [1] [] []

variable [Facts₀]

def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf
def dot_S4096x16_S16x14336_S4096x14336_1_0_0_1_n_n : DotDims S4096x16 S16x14336 S4096x14336 where
  lhsContracting := [1]
  rhsContracting := [0]
  lhsNonContracting := [0]
  rhsNonContracting := [1]
  lhsBatch := []
  rhsBatch := []
  wf := dot_S4096x16_S16x14336_S4096x14336_1_0_0_1_n_n_wf
def dot_S4096x14336_S14336x16_S4096x16_1_0_0_1_n_n : DotDims S4096x14336 S14336x16 S4096x16 where
  lhsContracting := [1]
  rhsContracting := [0]
  lhsNonContracting := [0]
  rhsNonContracting := [1]
  lhsBatch := []
  rhsBatch := []
  wf := dot_S4096x14336_S14336x16_S4096x16_1_0_0_1_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.KernelCases.lean ====
/-
  What each case of the kernel body leaves in the buffers it stores into, as the stored values.

  The body has three cases over a row block's tiles: the first tile (the two down-projected blocks and the
  reset accumulator are stored, then the first share is added), a middle tile (one more share is added to the
  accumulator), and the last tile (the last share is added and the result block is stored).  In each case a
  buffer ends holding the value of its last whole store; a load that follows a whole store of the same buffer
  reads that store's value.  The two down-projected blocks are stored at the first tile only and are what the
  later tiles read.
-/
import proofs.«125989_j4982162063462_1_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-! ## First tile -/

theorem down1_first (c : Dev nD) (i : grid0.Coords) (arg2 : Memref sig .tc .vmem S256x4096 .f32) (harg2 : arg2.IsWhole) (arg3 : Memref sig .tc .vmem S4096x16 .f32) (harg3 : arg3.IsWhole) (arg4 : Memref sig .tc .vmem S1x16 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S4096x16 .f32) (harg7 : arg7.IsWhole) (arg8 : Memref sig .tc .vmem S1x16 .f32) (harg8 : arg8.IsWhole) (arg9 : Memref sig .tc .vmem S16x1024 .f32) (harg9 : arg9.IsWhole) (arg10 : Memref sig .tc .vmem S1x1024 .f32) (harg10 : arg10.IsWhole) (arg11 : Memref sig .tc .vmem S1024x16 .f32) (harg11 : arg11.IsWhole) (arg12 : Memref sig .tc .vmem S1x16 .f32) (harg12 : arg12.IsWhole) (arg13 : Memref sig .tc .vmem S16x4096 .f32) (harg13 : arg13.IsWhole) (arg14 : Memref sig .tc .vmem S1x4096 .f32) (harg14 : arg14.IsWhole) (arg15 : Memref sig .tc .vmem S256x4096 .f32) (harg15 : arg15.IsWhole) (arg16 : Memref sig .tc .vmem S256x16 .f32) (harg16 : arg16.IsWhole) (arg17 : Memref sig .tc .vmem S256x16 .f32) (harg17 : arg17.IsWhole) (arg18 : Memref sig .tc .vmem S256x16 .f32) (harg18 : arg18.IsWhole) (hc0 : cond0_0 i) (hc1 : ¬cond0_1 i) (x0 : Vec F S256x4096 .f32) (x1 : Vec F S4096x16 .f32) (x2 : Vec F S1x16 .f32) (x3 : Vec F S16x1024 .f32) (x4 : Vec F S1x1024 .f32) (x5 : Vec F S4096x16 .f32) (x6 : Vec F S1x16 .f32) (x7 : Vec F S16x1024 .f32) (x8 : Vec F S1x1024 .f32) (x9 : Vec F S1024x16 .f32) (x10 : Vec F S1x16 .f32) (x11 : Vec F S16x4096 .f32) (x12 : Vec F S1x4096 .f32)  :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12  = k0_pay4 x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 )]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x16) hz, View.ld_unit_zero (S := S256x4096) hz, View.ld_unit_zero (S := S4096x16) hz, View.ld_unit_zero (S := S1x16) hz, View.ld_unit_zero (S := S16x1024) hz, View.ld_unit_zero (S := S1x1024) hz, View.ld_unit_zero (S := S1024x16) hz, View.ld_unit_zero (S := S16x4096) hz, View.ld_unit_zero (S := S1x4096) hz]

theorem down3_first (c : Dev nD) (i : grid0.Coords) (arg2 : Memref sig .tc .vmem S256x4096 .f32) (harg2 : arg2.IsWhole) (arg3 : Memref sig .tc .vmem S4096x16 .f32) (harg3 : arg3.IsWhole) (arg4 : Memref sig .tc .vmem S1x16 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S4096x16 .f32) (harg7 : arg7.IsWhole) (arg8 : Memref sig .tc .vmem S1x16 .f32) (harg8 : arg8.IsWhole) (arg9 : Memref sig .tc .vmem S16x1024 .f32) (harg9 : arg9.IsWhole) (arg10 : Memref sig .tc .vmem S1x1024 .f32) (harg10 : arg10.IsWhole) (arg11 : Memref sig .tc .vmem S1024x16 .f32) (harg11 : arg11.IsWhole) (arg12 : Memref sig .tc .vmem S1x16 .f32) (harg12 : arg12.IsWhole) (arg13 : Memref sig .tc .vmem S16x4096 .f32) (harg13 : arg13.IsWhole) (arg14 : Memref sig .tc .vmem S1x4096 .f32) (harg14 : arg14.IsWhole) (arg15 : Memref sig .tc .vmem S256x4096 .f32) (harg15 : arg15.IsWhole) (arg16 : Memref sig .tc .vmem S256x16 .f32) (harg16 : arg16.IsWhole) (arg17 : Memref sig .tc .vmem S256x16 .f32) (harg17 : arg17.IsWhole) (arg18 : Memref sig .tc .vmem S256x16 .f32) (harg18 : arg18.IsWhole) (hc0 : cond0_0 i) (hc1 : ¬cond0_1 i) (x0 : Vec F S256x4096 .f32) (x1 : Vec F S4096x16 .f32) (x2 : Vec F S1x16 .f32) (x3 : Vec F S16x1024 .f32) (x4 : Vec F S1x1024 .f32) (x5 : Vec F S4096x16 .f32) (x6 : Vec F S1x16 .f32) (x7 : Vec F S16x1024 .f32) (x8 : Vec F S1x1024 .f32) (x9 : Vec F S1024x16 .f32) (x10 : Vec F S1x16 .f32) (x11 : Vec F S16x4096 .f32) (x12 : Vec F S1x4096 .f32)  :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12  = k0_pay5 x0 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 )]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x16) hz, View.ld_unit_zero (S := S256x4096) hz, View.ld_unit_zero (S := S4096x16) hz, View.ld_unit_zero (S := S1x16) hz, View.ld_unit_zero (S := S16x1024) hz, View.ld_unit_zero (S := S1x1024) hz, View.ld_unit_zero (S := S1024x16) hz, View.ld_unit_zero (S := S16x4096) hz, View.ld_unit_zero (S := S1x4096) hz]

theorem acc_first (c : Dev nD) (i : grid0.Coords) (arg2 : Memref sig .tc .vmem S256x4096 .f32) (harg2 : arg2.IsWhole) (arg3 : Memref sig .tc .vmem S4096x16 .f32) (harg3 : arg3.IsWhole) (arg4 : Memref sig .tc .vmem S1x16 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S4096x16 .f32) (harg7 : arg7.IsWhole) (arg8 : Memref sig .tc .vmem S1x16 .f32) (harg8 : arg8.IsWhole) (arg9 : Memref sig .tc .vmem S16x1024 .f32) (harg9 : arg9.IsWhole) (arg10 : Memref sig .tc .vmem S1x1024 .f32) (harg10 : arg10.IsWhole) (arg11 : Memref sig .tc .vmem S1024x16 .f32) (harg11 : arg11.IsWhole) (arg12 : Memref sig .tc .vmem S1x16 .f32) (harg12 : arg12.IsWhole) (arg13 : Memref sig .tc .vmem S16x4096 .f32) (harg13 : arg13.IsWhole) (arg14 : Memref sig .tc .vmem S1x4096 .f32) (harg14 : arg14.IsWhole) (arg15 : Memref sig .tc .vmem S256x4096 .f32) (harg15 : arg15.IsWhole) (arg16 : Memref sig .tc .vmem S256x16 .f32) (harg16 : arg16.IsWhole) (arg17 : Memref sig .tc .vmem S256x16 .f32) (harg17 : arg17.IsWhole) (arg18 : Memref sig .tc .vmem S256x16 .f32) (harg18 : arg18.IsWhole) (hc0 : cond0_0 i) (hc1 : ¬cond0_1 i) (x0 : Vec F S256x4096 .f32) (x1 : Vec F S4096x16 .f32) (x2 : Vec F S1x16 .f32) (x3 : Vec F S16x1024 .f32) (x4 : Vec F S1x1024 .f32) (x5 : Vec F S4096x16 .f32) (x6 : Vec F S1x16 .f32) (x7 : Vec F S16x1024 .f32) (x8 : Vec F S1x1024 .f32) (x9 : Vec F S1024x16 .f32) (x10 : Vec F S1x16 .f32) (x11 : Vec F S16x4096 .f32) (x12 : Vec F S1x4096 .f32)  :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12  = k0_pay1 (k0_pay7 (k0_pay4 x0 x1 x2) (k0_pay5 x0 x5 x6) x3 x7 x4 x8 x9) k0_pay6 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 )]
  unfold kernelRun0_A
  dsimp only
  sl_unfold_words
  rw [View.canon_cons_unit_zero (S := S256x16) hz]
  simp only [View.readCov_unit_zero (S := S256x16) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x16) hz, View.ld_unit_zero (S := S256x4096) hz, View.ld_unit_zero (S := S4096x16) hz, View.ld_unit_zero (S := S1x16) hz, View.ld_unit_zero (S := S16x1024) hz, View.ld_unit_zero (S := S1x1024) hz, View.ld_unit_zero (S := S1024x16) hz, View.ld_unit_zero (S := S16x4096) hz, View.ld_unit_zero (S := S1x4096) hz]

/-! ## A middle tile -/

theorem acc_middle (c : Dev nD) (i : grid0.Coords) (arg2 : Memref sig .tc .vmem S256x4096 .f32) (harg2 : arg2.IsWhole) (arg3 : Memref sig .tc .vmem S4096x16 .f32) (harg3 : arg3.IsWhole) (arg4 : Memref sig .tc .vmem S1x16 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S4096x16 .f32) (harg7 : arg7.IsWhole) (arg8 : Memref sig .tc .vmem S1x16 .f32) (harg8 : arg8.IsWhole) (arg9 : Memref sig .tc .vmem S16x1024 .f32) (harg9 : arg9.IsWhole) (arg10 : Memref sig .tc .vmem S1x1024 .f32) (harg10 : arg10.IsWhole) (arg11 : Memref sig .tc .vmem S1024x16 .f32) (harg11 : arg11.IsWhole) (arg12 : Memref sig .tc .vmem S1x16 .f32) (harg12 : arg12.IsWhole) (arg13 : Memref sig .tc .vmem S16x4096 .f32) (harg13 : arg13.IsWhole) (arg14 : Memref sig .tc .vmem S1x4096 .f32) (harg14 : arg14.IsWhole) (arg15 : Memref sig .tc .vmem S256x4096 .f32) (harg15 : arg15.IsWhole) (arg16 : Memref sig .tc .vmem S256x16 .f32) (harg16 : arg16.IsWhole) (arg17 : Memref sig .tc .vmem S256x16 .f32) (harg17 : arg17.IsWhole) (arg18 : Memref sig .tc .vmem S256x16 .f32) (harg18 : arg18.IsWhole) (hc0 : ¬cond0_0 i) (hc1 : ¬cond0_1 i) (x0 : Vec F S256x4096 .f32) (x1 : Vec F S4096x16 .f32) (x2 : Vec F S1x16 .f32) (x3 : Vec F S16x1024 .f32) (x4 : Vec F S1x1024 .f32) (x5 : Vec F S4096x16 .f32) (x6 : Vec F S1x16 .f32) (x7 : Vec F S16x1024 .f32) (x8 : Vec F S1x1024 .f32) (x9 : Vec F S1024x16 .f32) (x10 : Vec F S1x16 .f32) (x11 : Vec F S16x4096 .f32) (x12 : Vec F S1x4096 .f32) (xs0 : Vec F S256x16 .f32) (xs1 : Vec F S256x16 .f32) (xs2 : Vec F S256x16 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 xs2 = k0_pay1 (k0_pay7 xs0 xs1 x3 x7 x4 x8 x9) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x16) hz, View.ld_unit_zero (S := S256x4096) hz, View.ld_unit_zero (S := S4096x16) hz, View.ld_unit_zero (S := S1x16) hz, View.ld_unit_zero (S := S16x1024) hz, View.ld_unit_zero (S := S1x1024) hz, View.ld_unit_zero (S := S1024x16) hz, View.ld_unit_zero (S := S16x4096) hz, View.ld_unit_zero (S := S1x4096) hz]

/-! ## The last tile -/

theorem acc_last (c : Dev nD) (i : grid0.Coords) (arg2 : Memref sig .tc .vmem S256x4096 .f32) (harg2 : arg2.IsWhole) (arg3 : Memref sig .tc .vmem S4096x16 .f32) (harg3 : arg3.IsWhole) (arg4 : Memref sig .tc .vmem S1x16 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S4096x16 .f32) (harg7 : arg7.IsWhole) (arg8 : Memref sig .tc .vmem S1x16 .f32) (harg8 : arg8.IsWhole) (arg9 : Memref sig .tc .vmem S16x1024 .f32) (harg9 : arg9.IsWhole) (arg10 : Memref sig .tc .vmem S1x1024 .f32) (harg10 : arg10.IsWhole) (arg11 : Memref sig .tc .vmem S1024x16 .f32) (harg11 : arg11.IsWhole) (arg12 : Memref sig .tc .vmem S1x16 .f32) (harg12 : arg12.IsWhole) (arg13 : Memref sig .tc .vmem S16x4096 .f32) (harg13 : arg13.IsWhole) (arg14 : Memref sig .tc .vmem S1x4096 .f32) (harg14 : arg14.IsWhole) (arg15 : Memref sig .tc .vmem S256x4096 .f32) (harg15 : arg15.IsWhole) (arg16 : Memref sig .tc .vmem S256x16 .f32) (harg16 : arg16.IsWhole) (arg17 : Memref sig .tc .vmem S256x16 .f32) (harg17 : arg17.IsWhole) (arg18 : Memref sig .tc .vmem S256x16 .f32) (harg18 : arg18.IsWhole) (hc0 : ¬cond0_0 i) (hc1 : cond0_1 i) (x0 : Vec F S256x4096 .f32) (x1 : Vec F S4096x16 .f32) (x2 : Vec F S1x16 .f32) (x3 : Vec F S16x1024 .f32) (x4 : Vec F S1x1024 .f32) (x5 : Vec F S4096x16 .f32) (x6 : Vec F S1x16 .f32) (x7 : Vec F S16x1024 .f32) (x8 : Vec F S1x1024 .f32) (x9 : Vec F S1024x16 .f32) (x10 : Vec F S1x16 .f32) (x11 : Vec F S16x4096 .f32) (x12 : Vec F S1x4096 .f32) (xs0 : Vec F S256x16 .f32) (xs1 : Vec F S256x16 .f32) (xs2 : Vec F S256x16 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 xs2 = k0_pay1 (k0_pay7 xs0 xs1 x3 x7 x4 x8 x9) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x16) hz, View.ld_unit_zero (S := S256x4096) hz, View.ld_unit_zero (S := S4096x16) hz, View.ld_unit_zero (S := S1x16) hz, View.ld_unit_zero (S := S16x1024) hz, View.ld_unit_zero (S := S1x1024) hz, View.ld_unit_zero (S := S1024x16) hz, View.ld_unit_zero (S := S16x4096) hz, View.ld_unit_zero (S := S1x4096) hz]

theorem out_last (c : Dev nD) (i : grid0.Coords) (arg2 : Memref sig .tc .vmem S256x4096 .f32) (harg2 : arg2.IsWhole) (arg3 : Memref sig .tc .vmem S4096x16 .f32) (harg3 : arg3.IsWhole) (arg4 : Memref sig .tc .vmem S1x16 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S4096x16 .f32) (harg7 : arg7.IsWhole) (arg8 : Memref sig .tc .vmem S1x16 .f32) (harg8 : arg8.IsWhole) (arg9 : Memref sig .tc .vmem S16x1024 .f32) (harg9 : arg9.IsWhole) (arg10 : Memref sig .tc .vmem S1x1024 .f32) (harg10 : arg10.IsWhole) (arg11 : Memref sig .tc .vmem S1024x16 .f32) (harg11 : arg11.IsWhole) (arg12 : Memref sig .tc .vmem S1x16 .f32) (harg12 : arg12.IsWhole) (arg13 : Memref sig .tc .vmem S16x4096 .f32) (harg13 : arg13.IsWhole) (arg14 : Memref sig .tc .vmem S1x4096 .f32) (harg14 : arg14.IsWhole) (arg15 : Memref sig .tc .vmem S256x4096 .f32) (harg15 : arg15.IsWhole) (arg16 : Memref sig .tc .vmem S256x16 .f32) (harg16 : arg16.IsWhole) (arg17 : Memref sig .tc .vmem S256x16 .f32) (harg17 : arg17.IsWhole) (arg18 : Memref sig .tc .vmem S256x16 .f32) (harg18 : arg18.IsWhole) (hc0 : ¬cond0_0 i) (hc1 : cond0_1 i) (x0 : Vec F S256x4096 .f32) (x1 : Vec F S4096x16 .f32) (x2 : Vec F S1x16 .f32) (x3 : Vec F S16x1024 .f32) (x4 : Vec F S1x1024 .f32) (x5 : Vec F S4096x16 .f32) (x6 : Vec F S1x16 .f32) (x7 : Vec F S16x1024 .f32) (x8 : Vec F S1x1024 .f32) (x9 : Vec F S1024x16 .f32) (x10 : Vec F S1x16 .f32) (x11 : Vec F S16x4096 .f32) (x12 : Vec F S1x4096 .f32) (xs0 : Vec F S256x16 .f32) (xs1 : Vec F S256x16 .f32) (xs2 : Vec F S256x16 .f32) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 xs2 = k0_pay2 (k0_pay1 (k0_pay7 xs0 xs1 x3 x7 x4 x8 x9) xs2) x10 x11 x12 := by
  unfold out0_C_13
  rw [View.read_writes_eq_canon _ _ _ (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 xs2)]
  unfold kernelRun0_C
  dsimp only
  sl_unfold_words
  rw [View.canon_unit_zero hz]
  simp only [View.readCov_unit_zero (S := S256x16) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x16) hz, View.ld_unit_zero (S := S256x4096) hz, View.ld_unit_zero (S := S4096x16) hz, View.ld_unit_zero (S := S1x16) hz, View.ld_unit_zero (S := S16x1024) hz, View.ld_unit_zero (S := S1x1024) hz, View.ld_unit_zero (S := S1024x16) hz, View.ld_unit_zero (S := S16x4096) hz, View.ld_unit_zero (S := S1x4096) hz]

end Cert.KernelIdeal.Cases

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«125989_j4982162063462_1_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.LibGatedLowRank.lean ====
/-
  A gated feed-forward layer whose three linear maps are low-rank, as one function of its arrays.

  A low-rank linear map sends a row `x` to `((x · Aᵀ + a) · Bᵀ + b) · s`: a projection down to a few
  coordinates, a projection back up, and a fixed scale `s`.  The layer applies two such maps to every row of
  the input, multiplies the first result, passed through `g ↦ g · σ(g)` (σ the logistic function), by the
  second, entry by entry, and applies a third such map to the product.  Every row of the result depends on the
  same row of the input only.  All sums are over the extended reals, where addition is commutative and
  associative, so the order in which a sum is taken is immaterial.
-/
import Idealize.ShloMosaic.PureOps.Ideal
import Idealize.ShloMosaic.Lib.ValueIdx

noncomputable section

open scoped BigOperators

namespace Cert.Spec

open Idealize.ShloMosaic Idealize.ShloMosaic.ValueIdx

/-- An `[a, b]` array of extended reals. -/
abbrev Mat (a b : Nat) : Type := (⟨2, ![a, b]⟩ : Shape).Idx → EReal
/-- A length-`a` array of extended reals. -/
abbrev Vect (a : Nat) : Type := (⟨1, ![a]⟩ : Shape).Idx → EReal

/-- The scale of a low-rank map, 2, kept as the value of its f32 word. -/
abbrev two : EReal := Ideal.ofBits .f32 0x40000000#32

/-- `h · Wᵀ + b` at entry `c`: the sum over the shared axis of `h k · W c k`, plus `b c`. -/
def affine {K N : Nat} (W : Mat N K) (b : Vect N) (h : Fin K → EReal) (c : Fin N) : EReal :=
  (∑ k : Fin K, h k * W (ix2 c k)) + b (ix1 c)

/-- A low-rank linear map at entry `f`: down by `A`, `a`, up by `B`, `b`, times the scale. -/
def lowRank {K R N : Nat} (A : Mat R K) (a : Vect R) (B : Mat N R) (b : Vect N) (x : Fin K → EReal) (f : Fin N) : EReal :=
  affine B b (affine A a x) f * two

/-- `g · σ(g)`. -/
def silu (g : EReal) : EReal := g * Ideal.logistic g

/-- The gated product of the two inner maps at entry `f` of a row. -/
def gated {D R Ff : Nat} (A1 : Mat R D) (a1 : Vect R) (B1 : Mat Ff R) (b1 : Vect Ff)
    (A3 : Mat R D) (a3 : Vect R) (B3 : Mat Ff R) (b3 : Vect Ff) (x : Fin D → EReal) (f : Fin Ff) : EReal :=
  silu (lowRank A1 a1 B1 b1 x f) * lowRank A3 a3 B3 b3 x f

/-- The layer on one row. -/
def layerRow {D R Ff : Nat} (A1 : Mat R D) (a1 : Vect R) (B1 : Mat Ff R) (b1 : Vect Ff)
    (A3 : Mat R D) (a3 : Vect R) (B3 : Mat Ff R) (b3 : Vect Ff)
    (A2 : Mat R Ff) (a2 : Vect R) (B2 : Mat D R) (b2 : Vect D) (x : Fin D → EReal) (c : Fin D) : EReal :=
  lowRank A2 a2 B2 b2 (gated A1 a1 B1 b1 A3 a3 B3 b3 x) c

/-- Row `r` of an array, as a function of the second coordinate. -/
abbrev row {T D : Nat} (X : Mat T D) (r : Fin T) : Fin D → EReal := fun d => X (ix2 r d)

/-- The layer on a whole `[T, D]` array: entry `(r, c)` is the layer on row `r`, at `c`. -/
def layer {T D R Ff : Nat} (X : Mat T D) (A1 : Mat R D) (a1 : Vect R) (B1 : Mat Ff R) (b1 : Vect Ff)
    (A3 : Mat R D) (a3 : Vect R) (B3 : Mat Ff R) (b3 : Vect Ff)
    (A2 : Mat R Ff) (a2 : Vect R) (B2 : Mat D R) (b2 : Vect D) : Mat T D :=
  fun i => layerRow A1 a1 B1 b1 A3 a3 B3 b3 A2 a2 B2 b2 (row X (i 0)) (i 1)

theorem layer_apply {T D R Ff : Nat} (X : Mat T D) (A1 : Mat R D) (a1 : Vect R) (B1 : Mat Ff R) (b1 : Vect Ff)
    (A3 : Mat R D) (a3 : Vect R) (B3 : Mat Ff R) (b3 : Vect Ff)
    (A2 : Mat R Ff) (a2 : Vect R) (B2 : Mat D R) (b2 : Vect D) (r : Fin T) (c : Fin D) :
    layer X A1 a1 B1 b1 A3 a3 B3 b3 A2 a2 B2 b2 (ix2 r c)
      = layerRow A1 a1 B1 b1 A3 a3 B3 b3 A2 a2 B2 b2 (row X r) c := rfl

end Cert.Spec

end
-- ==== Proof.LibLowRank.lean ====
/-
  A low-rank linear map and the gate `g · σ(g)`, read at one index on the extended reals.

  `x · Wᵀ + b` is written over whole arrays as the host writes it (a `dot_general` with the transposed weight, the
  bias broadcast first to one row and then to every row) or over one block of rows as a kernel body writes it (a
  `matmul` into a zero accumulator of the block and an already transposed weight block, the bias held as a
  one-row block and repeated).  In both, entry (r, c) is the sum over the shared axis of the products, plus the
  bias at c.  Two such maps composed and scaled give a low-rank map.  The logistic function is one operation in a
  kernel and the expression `1 / (1 + e^(-g))` on the host; on the extended reals these are one function.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«125989_j4982162063462_1_alg».proof.Proof.LibRowOps
import proofs.«125989_j4982162063462_1_alg».proof.Proof.LibDense
import proofs.«125989_j4982162063462_1_alg».proof.Proof.LibGatedLowRank

noncomputable section

open scoped BigOperators

namespace Cert.LowRank

open Idealize.ShloMosaic Idealize.ShloMosaic.ValueIdx Cert.RowOps Cert.Dense Cert.Spec

/-! ## Over whole arrays (the host's spelling) -/

section Host

/-- `X · Wᵀ + b` at (r, c). -/
theorem hostAffine_apply {M K N : Nat} {d : DotDims ⟨2, ![M, K]⟩ ⟨2, ![K, N]⟩ ⟨2, ![M, N]⟩} (hd : IsPlain d)
    (X : FVec Ideal ⟨2, ![M, K]⟩ .f32) (W : FVec Ideal ⟨2, ![N, K]⟩ .f32) (b : FVec Ideal ⟨1, ![N]⟩ .f32)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    addf (Host.dotGeneral d none X (transpose ⟨2, ![K, N]⟩ [1, 0] W ht))
        (broadcastInDim ⟨2, ![M, N]⟩ ![0, 1] h2 (broadcastInDim ⟨2, ![1, N]⟩ ![1] h1 b)) (ix2 r c)
      = affine W b (row X r) c := by
  rw [addf_apply, hostRowBias_apply]
  exact congrArg (· + b (ix1 c)) ((hostDot_apply hd none .single X _ r c).trans
    (Finset.sum_congr rfl fun k _ => by rw [swap_apply]))

/-- The scaled composition of two such maps at (r, f). -/
theorem hostLowRank_apply {M K R N : Nat} {d1 : DotDims ⟨2, ![M, K]⟩ ⟨2, ![K, R]⟩ ⟨2, ![M, R]⟩}
    {d2 : DotDims ⟨2, ![M, R]⟩ ⟨2, ![R, N]⟩ ⟨2, ![M, N]⟩} (hd1 : IsPlain d1) (hd2 : IsPlain d2)
    (X : FVec Ideal ⟨2, ![M, K]⟩ .f32) (A : FVec Ideal ⟨2, ![R, K]⟩ .f32) (a : FVec Ideal ⟨1, ![R]⟩ .f32)
    (B : FVec Ideal ⟨2, ![N, R]⟩ .f32) (b : FVec Ideal ⟨1, ![N]⟩ .f32)
    (htA : (⟨2, ![R, K]⟩ : Shape).Transposes [1, 0] ⟨2, ![K, R]⟩)
    (ha1 : (⟨1, ![R]⟩ : Shape).BroadcastsInDim ⟨2, ![1, R]⟩ ![1])
    (ha2 : (⟨2, ![1, R]⟩ : Shape).BroadcastsInDim ⟨2, ![M, R]⟩ ![0, 1])
    (htB : (⟨2, ![N, R]⟩ : Shape).Transposes [1, 0] ⟨2, ![R, N]⟩)
    (hb1 : (⟨1, ![N]⟩ : Shape).BroadcastsInDim ⟨2, ![1, N]⟩ ![1])
    (hb2 : (⟨2, ![1, N]⟩ : Shape).BroadcastsInDim ⟨2, ![M, N]⟩ ![0, 1])
    (h0 : (⟨0, ![]⟩ : Shape).BroadcastsInDim ⟨2, ![M, N]⟩ ![]) (r : Fin M) (f : Fin N) :
    mulf (addf (Host.dotGeneral d2 none
          (addf (Host.dotGeneral d1 none X (transpose ⟨2, ![K, R]⟩ [1, 0] A htA))
            (broadcastInDim ⟨2, ![M, R]⟩ ![0, 1] ha2 (broadcastInDim ⟨2, ![1, R]⟩ ![1] ha1 a)))
          (transpose ⟨2, ![R, N]⟩ [1, 0] B htB))
        (broadcastInDim ⟨2, ![M, N]⟩ ![0, 1] hb2 (broadcastInDim ⟨2, ![1, N]⟩ ![1] hb1 b)))
      (broadcastInDim ⟨2, ![M, N]⟩ ![] h0 (constant (F := Ideal) ⟨0, ![]⟩ .f32 0x40000000#32)) (ix2 r f)
      = lowRank A a B b (row X r) f := by
  rw [mulf_apply, broadcastInDim_scalar_apply, constant_apply, hostAffine_apply hd2]
  exact congrArg (fun h => affine B b h f * two) (funext fun k => hostAffine_apply hd1 X A a htA ha1 ha2 r k)

/-- `g · (1 / (1 + e^(-g)))` at an index is `g · σ(g)` of the entry. -/
theorem hostSilu_apply {s : Shape} (g : FVec Ideal s .f32) (h0 h0' : (⟨0, ![]⟩ : Shape).BroadcastsInDim s ![]) (i : s.Idx) :
    mulf g (Host.divf (broadcastInDim s ![] h0 (constant (F := Ideal) ⟨0, ![]⟩ .f32 0x3F800000#32))
        (addf (broadcastInDim s ![] h0' (constant (F := Ideal) ⟨0, ![]⟩ .f32 0x3F800000#32)) (Host.exp (Host.negf g)))) i
      = silu (g i) := by
  rw [mulf_apply, hostDivf_apply, addf_apply, broadcastInDim_scalar_apply, constant_apply, Ideal.ofBits_one_f32]
  rfl

end Host

/-! ## Over one block of rows (a kernel body's spelling) -/

section Block

/-- A block of rows times a weight block, plus a one-row bias block, at (r, c). -/
theorem blockAffine_apply {M K N : Nat} {d : DotDims ⟨2, ![M, K]⟩ ⟨2, ![K, N]⟩ ⟨2, ![M, N]⟩} (hd : IsPlain d)
    (x : FVec Ideal ⟨2, ![M, K]⟩ .f32) (w : FVec Ideal ⟨2, ![K, N]⟩ .f32) (b : FVec Ideal ⟨2, ![1, N]⟩ .f32)
    (hlt hlt' : FTy.bf16.bits < FTy.f32.bits)
    (hsw : (⟨2, ![K, N]⟩ : Shape).ShapeCasts ⟨2, ![K, N]⟩) (hsb : (⟨2, ![1, N]⟩ : Shape).ShapeCasts ⟨2, ![1, N]⟩)
    (hbb : (⟨2, ![1, N]⟩ : Shape).Broadcasts ⟨2, ![M, N]⟩) (r : Fin M) (c : Fin N) :
    addf (matmul d none (truncf .bf16 x hlt) (truncf .bf16 (shapeCast ⟨2, ![K, N]⟩ w hsw) hlt')
          (constant ⟨2, ![M, N]⟩ .f32 0x00000000#32))
        (broadcastTo ⟨2, ![M, N]⟩ (shapeCast ⟨2, ![1, N]⟩ b hsb) hbb) (ix2 r c)
      = (∑ k : Fin K, x (ix2 r k) * w (ix2 k c)) + b (ix2 (0 : Fin 1) c) := by
  rw [addf_apply, broadcastTo_1b_ab_apply, shapeCast_self, shapeCast_self]
  exact congrArg (· + b (ix2 (0 : Fin 1) c))
    (matmul_zero_apply hd none (truncf .bf16 x hlt) (truncf .bf16 w hlt') r c)

/-- The same, scaled by a splat of the scale's word. -/
theorem blockScaled_apply {M K N : Nat} {d : DotDims ⟨2, ![M, K]⟩ ⟨2, ![K, N]⟩ ⟨2, ![M, N]⟩} (hd : IsPlain d)
    (x : FVec Ideal ⟨2, ![M, K]⟩ .f32) (w : FVec Ideal ⟨2, ![K, N]⟩ .f32) (b : FVec Ideal ⟨2, ![1, N]⟩ .f32)
    (hlt hlt' : FTy.bf16.bits < FTy.f32.bits)
    (hsw : (⟨2, ![K, N]⟩ : Shape).ShapeCasts ⟨2, ![K, N]⟩) (hsb : (⟨2, ![1, N]⟩ : Shape).ShapeCasts ⟨2, ![1, N]⟩)
    (hbb : (⟨2, ![1, N]⟩ : Shape).Broadcasts ⟨2, ![M, N]⟩) (r : Fin M) (c : Fin N) :
    mulf (addf (matmul d none (truncf .bf16 x hlt) (truncf .bf16 (shapeCast ⟨2, ![K, N]⟩ w hsw) hlt')
          (constant ⟨2, ![M, N]⟩ .f32 0x00000000#32))
        (broadcastTo ⟨2, ![M, N]⟩ (shapeCast ⟨2, ![1, N]⟩ b hsb) hbb))
      (broadcast ⟨2, ![M, N]⟩ (Scalar.ofBits (F := Ideal) .f32 0x40000000#32)) (ix2 r c)
      = ((∑ k : Fin K, x (ix2 r k) * w (ix2 k c)) + b (ix2 (0 : Fin 1) c)) * two := by
  rw [mulf_apply, broadcast_apply, blockAffine_apply hd]
  rfl

/-- `g · σ(g)` with the logistic function as one operation, at an index. -/
theorem blockSilu_apply {s : Shape} (g : FVec Ideal s .f32) (i : s.Idx) : mulf g (logistic g) i = silu (g i) := rfl

end Block

end Cert.LowRank

end
-- ==== Proof.KernelPay.lean ====
/-
  What each store of the kernel body writes, entry by entry, on the extended reals.

  The body computes on blocks: a block `x` of 256 rows of the input, the transposed down-projections whole, a
  tile of 1024 columns of the transposed up-projections and of their biases, the matching 1024 rows of the
  third map's transposed down-projection, and the third map's remaining pieces whole.  At the first tile of a
  row block it stores the two down-projected blocks `x · A₁ᵀ + a₁` and `x · A₃ᵀ + a₃` and a zero block; at
  every tile it adds to the third block the tile's share of the contraction over the inner axis; after the last
  tile it stores the result block.  Each lemma reads one stored value at row p and column k of the block, in
  terms of the blocks only.
-/
import proofs.«125989_j4982162063462_1_alg».proof.Proof.Gen.KernelIdeal.Skeleton
import proofs.«125989_j4982162063462_1_alg».proof.Proof.LibLowRank

noncomputable section

open scoped BigOperators

namespace Cert.KernelIdeal.Pay

open Cert.KernelIdeal Cert.KernelIdeal.Gen Idealize.ShloMosaic Idealize.ShloMosaic.ValueIdx
open Cert.RowOps Cert.LowRank Cert.Spec

theorem plain_down : IsPlain dot_S256x4096_S4096x16_S256x16_1_0_0_1_n_n := ⟨rfl, rfl, rfl, rfl, rfl, rfl⟩
theorem plain_up : IsPlain dot_S256x16_S16x1024_S256x1024_1_0_0_1_n_n := ⟨rfl, rfl, rfl, rfl, rfl, rfl⟩
theorem plain_tile : IsPlain dot_S256x1024_S1024x16_S256x16_1_0_0_1_n_n := ⟨rfl, rfl, rfl, rfl, rfl, rfl⟩
theorem plain_out : IsPlain dot_S256x16_S16x4096_S256x4096_1_0_0_1_n_n := ⟨rfl, rfl, rfl, rfl, rfl, rfl⟩

/-- The first down-projected block: `x · w + b` with `w` the transposed weight and `b` the one-row bias. -/
theorem down1_apply (x : FVec Ideal S256x4096 .f32) (w : FVec Ideal S4096x16 .f32) (b : FVec Ideal S1x16 .f32)
    (p : Fin 256) (k : Fin 16) :
    k0_pay4 (F := Ideal) x w b (ix2 p k) = (∑ d : Fin 4096, x (ix2 p d) * w (ix2 d k)) + b (ix2 (0 : Fin 1) k) := by
  unfold k0_pay4 k0_pay3
  refine (congrFun (shapeCast_self _ _) (ix2 p k)).trans ?_
  exact blockAffine_apply plain_down x w b bitsLt_bf16_f32 bitsLt_bf16_f32 shapeCasts_S4096x16_S4096x16
    shapeCasts_S1x16_S1x16 broadcasts_S1x16_S256x16 p k

/-- The second down-projected block, of the same form. -/
theorem down3_apply (x : FVec Ideal S256x4096 .f32) (w : FVec Ideal S4096x16 .f32) (b : FVec Ideal S1x16 .f32)
    (p : Fin 256) (k : Fin 16) :
    k0_pay5 (F := Ideal) x w b (ix2 p k) = (∑ d : Fin 4096, x (ix2 p d) * w (ix2 d k)) + b (ix2 (0 : Fin 1) k) := by
  unfold k0_pay5 k0_pay3
  refine (congrFun (shapeCast_self _ _) (ix2 p k)).trans ?_
  exact blockAffine_apply plain_down x w b bitsLt_bf16_f32 bitsLt_bf16_f32 shapeCasts_S4096x16_S4096x16
    shapeCasts_S1x16_S1x16 broadcasts_S1x16_S256x16 p k

/-- The block the accumulator is reset to: zero. -/
theorem reset_apply (p : Fin 256) (k : Fin 16) : k0_pay6 (F := Ideal) (ix2 p k) = 0 := by
  unfold k0_pay6
  refine (congrFun (shapeCast_self _ _) (ix2 p k)).trans ?_
  exact Ideal.ofBits_zero_f32

/-- One tile's share: over the tile's 1024 inner indices, the gated product of the two up-projections of the
    down-projected blocks `h₁`, `h₃`, times the third map's down-projection. -/
theorem share_apply (h1 h3 : FVec Ideal S256x16 .f32) (w1 w3 : FVec Ideal S16x1024 .f32)
    (b1 b3 : FVec Ideal S1x1024 .f32) (wa : FVec Ideal S1024x16 .f32) (p : Fin 256) (k : Fin 16) :
    k0_pay7 (F := Ideal) h1 h3 w1 w3 b1 b3 wa (ix2 p k)
      = ∑ l : Fin 1024,
          (silu (((∑ q : Fin 16, h1 (ix2 p q) * w1 (ix2 q l)) + b1 (ix2 (0 : Fin 1) l)) * two)
            * (((∑ q : Fin 16, h3 (ix2 p q) * w3 (ix2 q l)) + b3 (ix2 (0 : Fin 1) l)) * two)) * wa (ix2 l k) := by
  unfold k0_pay7
  refine (matmul_zero_apply plain_tile none _ _ p k).trans (Finset.sum_congr rfl fun l _ => ?_)
  refine congrArg₂ (· * ·) ?_ (congrFun (shapeCast_self wa _) (ix2 l k))
  exact congrArg₂ (fun g u => silu g * u)
    (blockScaled_apply plain_up h1 w1 b1 bitsLt_bf16_f32 bitsLt_bf16_f32 shapeCasts_S16x1024_S16x1024
      shapeCasts_S1x1024_S1x1024 broadcasts_S1x1024_S256x1024 p l)
    (blockScaled_apply plain_up h3 w3 b3 bitsLt_bf16_f32 bitsLt_bf16_f32 shapeCasts_S16x1024_S16x1024
      shapeCasts_S1x1024_S1x1024 broadcasts_S1x1024_S256x1024 p l)

/-- The accumulator after a tile: what it held plus the tile's share. -/
theorem accum_apply (s acc : FVec Ideal S256x16 .f32) (p : Fin 256) (k : Fin 16) :
    k0_pay1 (F := Ideal) s acc (ix2 p k) = acc (ix2 p k) + s (ix2 p k) := by
  unfold k0_pay1
  exact congrFun (shapeCast_self _ _) (ix2 p k)

/-- The result block: the accumulated block plus its bias, times the transposed up-projection, plus the bias,
    scaled. -/
theorem result_apply (acc : FVec Ideal S256x16 .f32) (a : FVec Ideal S1x16 .f32) (w : FVec Ideal S16x4096 .f32)
    (b : FVec Ideal S1x4096 .f32) (p : Fin 256) (c : Fin 4096) :
    k0_pay2 (F := Ideal) acc a w b (ix2 p c)
      = ((∑ k : Fin 16, (acc (ix2 p k) + a (ix2 (0 : Fin 1) k)) * w (ix2 k c)) + b (ix2 (0 : Fin 1) c)) * two := by
  unfold k0_pay2
  refine (blockScaled_apply plain_out _ w b bitsLt_bf16_f32 bitsLt_bf16_f32 shapeCasts_S16x4096_S16x4096
    shapeCasts_S1x4096_S1x4096 broadcasts_S1x4096_S256x4096 p c).trans ?_
  refine congrArg (fun s => (s + b (ix2 (0 : Fin 1) c)) * two) (Finset.sum_congr rfl fun k _ => ?_)
  refine congrArg (· * w (ix2 k c)) ?_
  refine (addf_apply _ _ _).trans (congrArg (acc (ix2 p k) + ·) ?_)
  exact (broadcastTo_1b_ab_apply _ _ p k).trans (congrFun (shapeCast_self a _) _)

end Cert.KernelIdeal.Pay

end
-- ==== Proof.KernelBlocks.lean ====
/-
  The blocks the kernel body reads, as entries of the argument arrays.

  Before the kernel runs, the host transposes the six projection matrices and views the six bias vectors as
  one-row arrays.  The grid has 16 · 14 points; point t works on row block t / 14 (256 rows of the input) and on
  tile t % 14 (1024 indices of the inner axis).  The input's block is rows 256 · (t / 14) + p; the up-projections'
  and their biases' blocks are the tile's columns 1024 · (t % 14) + l of the transposed arrays; the third map's
  down-projection's block is the tile's rows of its transpose; every other operand is read whole.
-/
import proofs.«125989_j4982162063462_1_alg».proof.Proof.Gen.KernelIdeal.Frame
import proofs.«125989_j4982162063462_1_alg».proof.Proof.LibRowOps
import proofs.«125989_j4982162063462_1_alg».proof.Proof.LibGatedLowRank
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx Cert.RowOps Cert.Spec

variable (m : (ℓ : Loc nD τ sig) → Buf (Elt Ideal) ℓ)

/-- Argument 0 on device `c`. -/
abbrev arr0 (c : Dev nD) : Mat 4096 4096 := m ((c : Thread nD τ).loc main_arg0)
/-- Argument 1 on device `c`. -/
abbrev arr1 (c : Dev nD) : Mat 16 4096 := m ((c : Thread nD τ).loc main_arg1)
/-- Argument 2 on device `c`. -/
abbrev arr2 (c : Dev nD) : Vect 16 := m ((c : Thread nD τ).loc main_arg2)
/-- Argument 3 on device `c`. -/
abbrev arr3 (c : Dev nD) : Mat 14336 16 := m ((c : Thread nD τ).loc main_arg3)
/-- Argument 4 on device `c`. -/
abbrev arr4 (c : Dev nD) : Vect 14336 := m ((c : Thread nD τ).loc main_arg4)
/-- Argument 5 on device `c`. -/
abbrev arr5 (c : Dev nD) : Mat 16 4096 := m ((c : Thread nD τ).loc main_arg5)
/-- Argument 6 on device `c`. -/
abbrev arr6 (c : Dev nD) : Vect 16 := m ((c : Thread nD τ).loc main_arg6)
/-- Argument 7 on device `c`. -/
abbrev arr7 (c : Dev nD) : Mat 14336 16 := m ((c : Thread nD τ).loc main_arg7)
/-- Argument 8 on device `c`. -/
abbrev arr8 (c : Dev nD) : Vect 14336 := m ((c : Thread nD τ).loc main_arg8)
/-- Argument 9 on device `c`. -/
abbrev arr9 (c : Dev nD) : Mat 16 14336 := m ((c : Thread nD τ).loc main_arg9)
/-- Argument 10 on device `c`. -/
abbrev arr10 (c : Dev nD) : Vect 16 := m ((c : Thread nD τ).loc main_arg10)
/-- Argument 11 on device `c`. -/
abbrev arr11 (c : Dev nD) : Mat 4096 16 := m ((c : Thread nD τ).loc main_arg11)
/-- Argument 12 on device `c`. -/
abbrev arr12 (c : Dev nD) : Vect 4096 := m ((c : Thread nD τ).loc main_arg12)

/-- The input row that row `p` of point `n`'s row block is. -/
def rowOf (n : ℕ) (p : Fin 256) : Fin 4096 := ⟨(256 * (n / 14) + p.val) % 4096, Nat.mod_lt _ (by decide)⟩
/-- The inner index that index `l` of tile `j` is. -/
def colOf (j : ℕ) (l : Fin 1024) : Fin 14336 := ⟨(1024 * j + l.val) % 14336, Nat.mod_lt _ (by decide)⟩

/-! ## The printed index maps over the grid -/

theorem idx0 : ∀ t : Fin cfg0.N, win0_0.index t (0 : Fin 2) = t.val / 14 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val % 14 :=
  (by decide +kernel : ∀ t : Fin grid0.N, _)
theorem idx4 : ∀ t : Fin cfg0.N, win0_4.index t (0 : Fin 2) = 0 ∧ win0_4.index t (1 : Fin 2) = t.val % 14 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = t.val % 14 :=
  (by decide +kernel : ∀ t : Fin grid0.N, _)
theorem idx8 : ∀ t : Fin cfg0.N, win0_8.index t (0 : Fin 2) = 0 ∧ win0_8.index t (1 : Fin 2) = t.val % 14 :=
  (by decide +kernel : ∀ t : Fin grid0.N, _)
theorem idx9 : ∀ t : Fin cfg0.N, win0_9.index t (0 : Fin 2) = t.val % 14 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = t.val / 14 ∧ win0_13.index t (1 : Fin 2) = 0 :=
  (by decide +kernel : ∀ t : Fin grid0.N, _)

/-! ## The arrays the host prepares -/

theorem V_v0 (c : Dev nD) : (V m c main_v0 : S4096x16.Idx → EReal) = transpose S4096x16 [1, 0] (m ((c : Thread nD τ).loc main_arg1)) transposes_S16x4096_S4096x16_1_0 := by
  dsimp only [V, hostOps0]; after_results <;> rfl
theorem V_v1 (c : Dev nD) : (V m c main_v1 : S1x16.Idx → EReal) = shapeCast S1x16 (m ((c : Thread nD τ).loc main_arg2)) shapeCasts_S16_S1x16 := by
  dsimp only [V, hostOps0]; after_results <;> rfl
theorem V_v2 (c : Dev nD) : (V m c main_v2 : S16x14336.Idx → EReal) = transpose S16x14336 [1, 0] (m ((c : Thread nD τ).loc main_arg3)) transposes_S14336x16_S16x14336_1_0 := by
  dsimp only [V, hostOps0]; after_results <;> rfl
theorem V_v3 (c : Dev nD) : (V m c main_v3 : S1x14336.Idx → EReal) = shapeCast S1x14336 (m ((c : Thread nD τ).loc main_arg4)) shapeCasts_S14336_S1x14336 := by
  dsimp only [V, hostOps0]; after_results <;> rfl
theorem V_v4 (c : Dev nD) : (V m c main_v4 : S4096x16.Idx → EReal) = transpose S4096x16 [1, 0] (m ((c : Thread nD τ).loc main_arg5)) transposes_S16x4096_S4096x16_1_0 := by
  dsimp only [V, hostOps0]; after_results <;> rfl
theorem V_v5 (c : Dev nD) : (V m c main_v5 : S1x16.Idx → EReal) = shapeCast S1x16 (m ((c : Thread nD τ).loc main_arg6)) shapeCasts_S16_S1x16 := by
  dsimp only [V, hostOps0]; after_results <;> rfl
theorem V_v6 (c : Dev nD) : (V m c main_v6 : S16x14336.Idx → EReal) = transpose S16x14336 [1, 0] (m ((c : Thread nD τ).loc main_arg7)) transposes_S14336x16_S16x14336_1_0 := by
  dsimp only [V, hostOps0]; after_results <;> rfl
theorem V_v7 (c : Dev nD) : (V m c main_v7 : S1x14336.Idx → EReal) = shapeCast S1x14336 (m ((c : Thread nD τ).loc main_arg8)) shapeCasts_S14336_S1x14336 := by
  dsimp only [V, hostOps0]; after_results <;> rfl
theorem V_v8 (c : Dev nD) : (V m c main_v8 : S14336x16.Idx → EReal) = transpose S14336x16 [1, 0] (m ((c : Thread nD τ).loc main_arg9)) transposes_S16x14336_S14336x16_1_0 := by
  dsimp only [V, hostOps0]; after_results <;> rfl
theorem V_v9 (c : Dev nD) : (V m c main_v9 : S1x16.Idx → EReal) = shapeCast S1x16 (m ((c : Thread nD τ).loc main_arg10)) shapeCasts_S16_S1x16 := by
  dsimp only [V, hostOps0]; after_results <;> rfl
theorem V_v10 (c : Dev nD) : (V m c main_v10 : S16x4096.Idx → EReal) = transpose S16x4096 [1, 0] (m ((c : Thread nD τ).loc main_arg11)) transposes_S4096x16_S16x4096_1_0 := by
  dsimp only [V, hostOps0]; after_results <;> rfl
theorem V_v11 (c : Dev nD) : (V m c main_v11 : S1x4096.Idx → EReal) = shapeCast S1x4096 (m ((c : Thread nD τ).loc main_arg12)) shapeCasts_S4096_S1x4096 := by
  dsimp only [V, hostOps0]; after_results <;> rfl

/-! ## The blocks -/

/-- Window 0's block: 256 rows of the input. -/
theorem blk0 (c : Dev nD) (t : Fin cfg0.N) (p : Fin 256) (d : Fin 4096) :
    (iblk m c 0 t : S256x4096.Idx → EReal) (ix2 p d) = arr0 m c (ix2 (rowOf t.val p) d) := by
  obtain ⟨e0, e1⟩ := idx0 t
  have hN : t.val < 224 := lt_of_lt_of_eq t.isLt (show cfg0.N = 224 from N_0)
  have he : ((cfg0.win 0).blk t).view.emb (ix2 p d) = ix2 (rowOf t.val p) d := funext fun ax => Fin.ext (by
      match ax with
      | ⟨0, _⟩ => show win0_0.index t (0 : Fin 2) * 256 + 1 * p.val = (256 * (t.val / 14) + p.val) % 4096; have := p.isLt; omega
      | ⟨1, _⟩ => show win0_0.index t (1 : Fin 2) * 4096 + 1 * d.val = d.val; have := d.isLt; omega)
  show V m c main_arg0 (((cfg0.win 0).blk t).view.emb (ix2 p d)) = _
  rw [he, V_main_arg0]

/-- Window 1's block. -/
theorem blk1 (c : Dev nD) (t : Fin cfg0.N) (d : Fin 4096) (k : Fin 16) :
    (iblk m c 1 t : S4096x16.Idx → EReal) (ix2 d k) = arr1 m c (ix2 k d) := by
  obtain ⟨e0, e1⟩ := idx1 t
  have he : ((cfg0.win 1).blk t).view.emb (ix2 d k) = ix2 d k := funext fun ax => Fin.ext (by
      match ax with
      | ⟨0, _⟩ => show win0_1.index t (0 : Fin 2) * 4096 + 1 * d.val = d.val; have := d.isLt; omega
      | ⟨1, _⟩ => show win0_1.index t (1 : Fin 2) * 16 + 1 * k.val = k.val; have := k.isLt; omega)
  show V m c main_v0 (((cfg0.win 1).blk t).view.emb (ix2 d k)) = _
  rw [he, V_v0]
  exact swap_apply _ _ d k

/-- Window 2's block. -/
theorem blk2 (c : Dev nD) (t : Fin cfg0.N) (k : Fin 16) :
    (iblk m c 2 t : S1x16.Idx → EReal) (ix2 (0 : Fin 1) k) = arr2 m c (ix1 k) := by
  obtain ⟨e0, e1⟩ := idx2 t
  have he : ((cfg0.win 2).blk t).view.emb (ix2 (0 : Fin 1) k) = ix2 (0 : Fin 1) k := funext fun ax => Fin.ext (by
      match ax with
      | ⟨0, _⟩ => show win0_2.index t (0 : Fin 2) * 1 + 1 * 0 = 0; omega
      | ⟨1, _⟩ => show win0_2.index t (1 : Fin 2) * 16 + 1 * k.val = k.val; have := k.isLt; omega)
  show V m c main_v1 (((cfg0.win 2).blk t).view.emb (ix2 (0 : Fin 1) k)) = _
  rw [he, V_v1]
  exact shapeCast_apply _ _ _ (ix1 k) (by
    rw [Shape.rowMajor_val_one, Shape.rowMajor_val_two]
    show (k).val = 0 * 16 + (k).val
    omega)

/-- Window 3's block. -/
theorem blk3 (c : Dev nD) (t : Fin cfg0.N) (k : Fin 16) (l : Fin 1024) :
    (iblk m c 3 t : S16x1024.Idx → EReal) (ix2 k l) = arr3 m c (ix2 (colOf (t.val % 14) l) k) := by
  obtain ⟨e0, e1⟩ := idx3 t
  have he : ((cfg0.win 3).blk t).view.emb (ix2 k l) = ix2 k (colOf (t.val % 14) l) := funext fun ax => Fin.ext (by
      match ax with
      | ⟨0, _⟩ => show win0_3.index t (0 : Fin 2) * 16 + 1 * k.val = k.val; have := k.isLt; omega
      | ⟨1, _⟩ => show win0_3.index t (1 : Fin 2) * 1024 + 1 * l.val = (1024 * (t.val % 14) + l.val) % 14336; have := l.isLt; omega)
  show V m c main_v2 (((cfg0.win 3).blk t).view.emb (ix2 k l)) = _
  rw [he, V_v2]
  exact swap_apply _ _ k (colOf (t.val % 14) l)

/-- Window 4's block. -/
theorem blk4 (c : Dev nD) (t : Fin cfg0.N) (l : Fin 1024) :
    (iblk m c 4 t : S1x1024.Idx → EReal) (ix2 (0 : Fin 1) l) = arr4 m c (ix1 (colOf (t.val % 14) l)) := by
  obtain ⟨e0, e1⟩ := idx4 t
  have he : ((cfg0.win 4).blk t).view.emb (ix2 (0 : Fin 1) l) = ix2 (0 : Fin 1) (colOf (t.val % 14) l) := funext fun ax => Fin.ext (by
      match ax with
      | ⟨0, _⟩ => show win0_4.index t (0 : Fin 2) * 1 + 1 * 0 = 0; omega
      | ⟨1, _⟩ => show win0_4.index t (1 : Fin 2) * 1024 + 1 * l.val = (1024 * (t.val % 14) + l.val) % 14336; have := l.isLt; omega)
  show V m c main_v3 (((cfg0.win 4).blk t).view.emb (ix2 (0 : Fin 1) l)) = _
  rw [he, V_v3]
  exact shapeCast_apply _ _ _ (ix1 (colOf (t.val % 14) l)) (by
    rw [Shape.rowMajor_val_one, Shape.rowMajor_val_two]
    show ((colOf (t.val % 14) l)).val = 0 * 14336 + ((colOf (t.val % 14) l)).val
    omega)

/-- Window 5's block. -/
theorem blk5 (c : Dev nD) (t : Fin cfg0.N) (d : Fin 4096) (k : Fin 16) :
    (iblk m c 5 t : S4096x16.Idx → EReal) (ix2 d k) = arr5 m c (ix2 k d) := by
  obtain ⟨e0, e1⟩ := idx5 t
  have he : ((cfg0.win 5).blk t).view.emb (ix2 d k) = ix2 d k := funext fun ax => Fin.ext (by
      match ax with
      | ⟨0, _⟩ => show win0_5.index t (0 : Fin 2) * 4096 + 1 * d.val = d.val; have := d.isLt; omega
      | ⟨1, _⟩ => show win0_5.index t (1 : Fin 2) * 16 + 1 * k.val = k.val; have := k.isLt; omega)
  show V m c main_v4 (((cfg0.win 5).blk t).view.emb (ix2 d k)) = _
  rw [he, V_v4]
  exact swap_apply _ _ d k

/-- Window 6's block. -/
theorem blk6 (c : Dev nD) (t : Fin cfg0.N) (k : Fin 16) :
    (iblk m c 6 t : S1x16.Idx → EReal) (ix2 (0 : Fin 1) k) = arr6 m c (ix1 k) := by
  obtain ⟨e0, e1⟩ := idx6 t
  have he : ((cfg0.win 6).blk t).view.emb (ix2 (0 : Fin 1) k) = ix2 (0 : Fin 1) k := funext fun ax => Fin.ext (by
      match ax with
      | ⟨0, _⟩ => show win0_6.index t (0 : Fin 2) * 1 + 1 * 0 = 0; omega
      | ⟨1, _⟩ => show win0_6.index t (1 : Fin 2) * 16 + 1 * k.val = k.val; have := k.isLt; omega)
  show V m c main_v5 (((cfg0.win 6).blk t).view.emb (ix2 (0 : Fin 1) k)) = _
  rw [he, V_v5]
  exact shapeCast_apply _ _ _ (ix1 k) (by
    rw [Shape.rowMajor_val_one, Shape.rowMajor_val_two]
    show (k).val = 0 * 16 + (k).val
    omega)

/-- Window 7's block. -/
theorem blk7 (c : Dev nD) (t : Fin cfg0.N) (k : Fin 16) (l : Fin 1024) :
    (iblk m c 7 t : S16x1024.Idx → EReal) (ix2 k l) = arr7 m c (ix2 (colOf (t.val % 14) l) k) := by
  obtain ⟨e0, e1⟩ := idx7 t
  have he : ((cfg0.win 7).blk t).view.emb (ix2 k l) = ix2 k (colOf (t.val % 14) l) := funext fun ax => Fin.ext (by
      match ax with
      | ⟨0, _⟩ => show win0_7.index t (0 : Fin 2) * 16 + 1 * k.val = k.val; have := k.isLt; omega
      | ⟨1, _⟩ => show win0_7.index t (1 : Fin 2) * 1024 + 1 * l.val = (1024 * (t.val % 14) + l.val) % 14336; have := l.isLt; omega)
  show V m c main_v6 (((cfg0.win 7).blk t).view.emb (ix2 k l)) = _
  rw [he, V_v6]
  exact swap_apply _ _ k (colOf (t.val % 14) l)

/-- Window 8's block. -/
theorem blk8 (c : Dev nD) (t : Fin cfg0.N) (l : Fin 1024) :
    (iblk m c 8 t : S1x1024.Idx → EReal) (ix2 (0 : Fin 1) l) = arr8 m c (ix1 (colOf (t.val % 14) l)) := by
  obtain ⟨e0, e1⟩ := idx8 t
  have he : ((cfg0.win 8).blk t).view.emb (ix2 (0 : Fin 1) l) = ix2 (0 : Fin 1) (colOf (t.val % 14) l) := funext fun ax => Fin.ext (by
      match ax with
      | ⟨0, _⟩ => show win0_8.index t (0 : Fin 2) * 1 + 1 * 0 = 0; omega
      | ⟨1, _⟩ => show win0_8.index t (1 : Fin 2) * 1024 + 1 * l.val = (1024 * (t.val % 14) + l.val) % 14336; have := l.isLt; omega)
  show V m c main_v7 (((cfg0.win 8).blk t).view.emb (ix2 (0 : Fin 1) l)) = _
  rw [he, V_v7]
  exact shapeCast_apply _ _ _ (ix1 (colOf (t.val % 14) l)) (by
    rw [Shape.rowMajor_val_one, Shape.rowMajor_val_two]
    show ((colOf (t.val % 14) l)).val = 0 * 14336 + ((colOf (t.val % 14) l)).val
    omega)

/-- Window 9's block. -/
theorem blk9 (c : Dev nD) (t : Fin cfg0.N) (l : Fin 1024) (k : Fin 16) :
    (iblk m c 9 t : S1024x16.Idx → EReal) (ix2 l k) = arr9 m c (ix2 k (colOf (t.val % 14) l)) := by
  obtain ⟨e0, e1⟩ := idx9 t
  have he : ((cfg0.win 9).blk t).view.emb (ix2 l k) = ix2 (colOf (t.val % 14) l) k := funext fun ax => Fin.ext (by
      match ax with
      | ⟨0, _⟩ => show win0_9.index t (0 : Fin 2) * 1024 + 1 * l.val = (1024 * (t.val % 14) + l.val) % 14336; have := l.isLt; omega
      | ⟨1, _⟩ => show win0_9.index t (1 : Fin 2) * 16 + 1 * k.val = k.val; have := k.isLt; omega)
  show V m c main_v8 (((cfg0.win 9).blk t).view.emb (ix2 l k)) = _
  rw [he, V_v8]
  exact swap_apply _ _ (colOf (t.val % 14) l) k

/-- Window 10's block. -/
theorem blk10 (c : Dev nD) (t : Fin cfg0.N) (k : Fin 16) :
    (iblk m c 10 t : S1x16.Idx → EReal) (ix2 (0 : Fin 1) k) = arr10 m c (ix1 k) := by
  obtain ⟨e0, e1⟩ := idx10 t
  have he : ((cfg0.win 10).blk t).view.emb (ix2 (0 : Fin 1) k) = ix2 (0 : Fin 1) k := funext fun ax => Fin.ext (by
      match ax with
      | ⟨0, _⟩ => show win0_10.index t (0 : Fin 2) * 1 + 1 * 0 = 0; omega
      | ⟨1, _⟩ => show win0_10.index t (1 : Fin 2) * 16 + 1 * k.val = k.val; have := k.isLt; omega)
  show V m c main_v9 (((cfg0.win 10).blk t).view.emb (ix2 (0 : Fin 1) k)) = _
  rw [he, V_v9]
  exact shapeCast_apply _ _ _ (ix1 k) (by
    rw [Shape.rowMajor_val_one, Shape.rowMajor_val_two]
    show (k).val = 0 * 16 + (k).val
    omega)

/-- Window 11's block. -/
theorem blk11 (c : Dev nD) (t : Fin cfg0.N) (k : Fin 16) (q : Fin 4096) :
    (iblk m c 11 t : S16x4096.Idx → EReal) (ix2 k q) = arr11 m c (ix2 q k) := by
  obtain ⟨e0, e1⟩ := idx11 t
  have he : ((cfg0.win 11).blk t).view.emb (ix2 k q) = ix2 k q := funext fun ax => Fin.ext (by
      match ax with
      | ⟨0, _⟩ => show win0_11.index t (0 : Fin 2) * 16 + 1 * k.val = k.val; have := k.isLt; omega
      | ⟨1, _⟩ => show win0_11.index t (1 : Fin 2) * 4096 + 1 * q.val = q.val; have := q.isLt; omega)
  show V m c main_v10 (((cfg0.win 11).blk t).view.emb (ix2 k q)) = _
  rw [he, V_v10]
  exact swap_apply _ _ k q

/-- Window 12's block. -/
theorem blk12 (c : Dev nD) (t : Fin cfg0.N) (q : Fin 4096) :
    (iblk m c 12 t : S1x4096.Idx → EReal) (ix2 (0 : Fin 1) q) = arr12 m c (ix1 q) := by
  obtain ⟨e0, e1⟩ := idx12 t
  have he : ((cfg0.win 12).blk t).view.emb (ix2 (0 : Fin 1) q) = ix2 (0 : Fin 1) q := funext fun ax => Fin.ext (by
      match ax with
      | ⟨0, _⟩ => show win0_12.index t (0 : Fin 2) * 1 + 1 * 0 = 0; omega
      | ⟨1, _⟩ => show win0_12.index t (1 : Fin 2) * 4096 + 1 * q.val = q.val; have := q.isLt; omega)
  show V m c main_v11 (((cfg0.win 12).blk t).view.emb (ix2 (0 : Fin 1) q)) = _
  rw [he, V_v11]
  exact shapeCast_apply _ _ _ (ix1 q) (by
    rw [Shape.rowMajor_val_one, Shape.rowMajor_val_two]
    show (q).val = 0 * 4096 + (q).val
    omega)

end Cert.KernelIdeal.Blocks

end
-- ==== Proof.LibTiledSum.lean ====
/-
  A sum over `T · n` consecutive indices taken tile by tile.

  In a commutative monoid a sum over `Fin N` with `N = T · n` is the sum over the `T` tiles of the sums over the
  `n` indices of each tile, index `l` of tile `j` being `n · j + l`; and the sum over the tiles is what an
  accumulator started at zero holds after the last tile has been added to it.
-/
import Mathlib.Algebra.BigOperators.Fin
import Mathlib.Algebra.BigOperators.Intervals
import Mathlib.Logic.Equiv.Fin.Basic

open scoped BigOperators

namespace Cert.TiledSum

/-- Index `l` of tile `j`, among `N = T · n` indices. -/
def tile {T n N : Nat} (h : T * n = N) (j : Fin T) (l : Fin n) : Fin N :=
  ⟨n * j.val + l.val, by
    have hj := j.isLt; have hl := l.isLt
    have : n * j.val + n ≤ n * T := by
      have := Nat.mul_le_mul_left n (Nat.succ_le_of_lt hj)
      simpa [Nat.mul_succ] using this
    rw [← h, Nat.mul_comm T n]; omega⟩

@[simp] theorem tile_val {T n N : Nat} (h : T * n = N) (j : Fin T) (l : Fin n) :
    (tile h j l).val = n * j.val + l.val := rfl

/-- A sum over `T · n` indices is the sum over the tiles of the sums within each tile. -/
theorem sum_tiles {M : Type*} [AddCommMonoid M] {T n N : Nat} (h : T * n = N) (F : Fin N → M) :
    ∑ f : Fin N, F f = ∑ j : Fin T, ∑ l : Fin n, F (tile h j l) := by
  subst h
  rw [← Equiv.sum_comp finProdFinEquiv F, Fintype.sum_prod_type]
  refine Finset.sum_congr rfl fun j _ => Finset.sum_congr rfl fun l _ => congrArg F (Fin.ext ?_)
  simp [finProdFinEquiv, tile, Nat.add_comm]

/-- The sum over all `T` tiles is the sum over the first `T` naturals. -/
theorem sum_fin_eq_range {M : Type*} [AddCommMonoid M] (T : Nat) (p : Nat → M) :
    ∑ j : Fin T, p j.val = ∑ j ∈ Finset.range T, p j := (Finset.sum_range p).symm

end Cert.TiledSum
-- ==== Proof.KernelInvariant.lean ====
/-
  What the kernel's carried buffers hold after every grid point.

  The grid visits, for each block of 256 input rows, the 14 tiles of the inner axis in order.  Three buffers are
  carried from one point to the next: the two down-projected blocks, stored at a row block's first tile and
  only read afterwards, and the accumulator, reset to zero at the first tile and increased at every tile by
  that tile's share of the third map's contraction over the inner axis.  So after the point of row block i and
  tile j the first two hold `x · A₁ᵀ + a₁` and `x · A₃ᵀ + a₃` of the block's rows, and the accumulator holds
  the sum of the shares of tiles 0 … j — by induction on the point.  After the last tile the shares of all
  tiles have been added, which is the whole contraction over the inner axis (addition on the extended reals
  is commutative and associative), and the result block stored there is the layer on the block's rows.
-/
import proofs.«125989_j4982162063462_1_alg».proof.Proof.Gen.KernelIdeal.Frame
import proofs.«125989_j4982162063462_1_alg».proof.Proof.KernelCases
import proofs.«125989_j4982162063462_1_alg».proof.Proof.KernelPay
import proofs.«125989_j4982162063462_1_alg».proof.Proof.KernelBlocks
import proofs.«125989_j4982162063462_1_alg».proof.Proof.LibTiledSum
import proofs.«125989_j4982162063462_1_alg».proof.Proof.LibGatedLowRank

noncomputable section

open scoped BigOperators

namespace Cert.KernelIdeal.Inv

open Cert.KernelIdeal Cert.KernelIdeal.Gen Idealize.ShloMosaic Idealize.ShloMosaic.TcCoe Idealize.SL.Sem
open Idealize.ShloMosaic.ValueIdx Cert.Spec Cert.TiledSum
open Cert.KernelIdeal.Blocks Cert.KernelIdeal.Cases Cert.KernelIdeal.Pay

variable (m : (ℓ : Loc nD τ sig) → Buf (Elt Ideal) ℓ)

/-- Entry `q` of the first down-projection of input row `r`. -/
abbrev down1 (c : Dev nD) (r : Fin 4096) (q : Fin 16) : EReal := affine (arr1 m c) (arr2 m c) (row (arr0 m c) r) q
/-- Entry `q` of the second down-projection of input row `r`. -/
abbrev down3 (c : Dev nD) (r : Fin 4096) (q : Fin 16) : EReal := affine (arr5 m c) (arr6 m c) (row (arr0 m c) r) q

/-- Tile `j`'s share of entry `k` of the third map's contraction, for input row `r`. -/
def share (c : Dev nD) (r : Fin 4096) (k : Fin 16) (j : ℕ) : EReal :=
  ∑ l : Fin 1024, gated (arr1 m c) (arr2 m c) (arr3 m c) (arr4 m c) (arr5 m c) (arr6 m c) (arr7 m c) (arr8 m c) (row (arr0 m c) r) (colOf j l) * arr9 m c (ix2 k (colOf j l))

/-- The tile's share as the body computes it from the two down-projected blocks and the tile's blocks. -/
theorem share_eq (c : Dev nD) (t : Fin cfg0.N) (h1 h3 : FVec Ideal S256x16 .f32) (p : Fin 256) (k : Fin 16) (r : Fin 4096)
    (H1 : ∀ q : Fin 16, h1 (ix2 p q) = down1 m c r q) (H3 : ∀ q : Fin 16, h3 (ix2 p q) = down3 m c r q) :
    k0_pay7 (F := Ideal) h1 h3 (iblk m c 3 t) (iblk m c 7 t) (iblk m c 4 t) (iblk m c 8 t) (iblk m c 9 t) (ix2 p k) = share m c r k (t.val % 14) := by
  refine (share_apply h1 h3 (iblk m c 3 t) (iblk m c 7 t) (iblk m c 4 t) (iblk m c 8 t) (iblk m c 9 t) p k).trans ?_
  unfold share gated lowRank
  refine Finset.sum_congr rfl fun l _ => ?_
  refine congrArg₂ (· * ·) (congrArg₂ (fun g u => silu (g * two) * (u * two)) ?_ ?_) (blk9 m c t l k)
  · exact congrArg₂ (· + ·) (Finset.sum_congr rfl fun q _ => congrArg₂ (· * ·) (H1 q) (blk3 m c t q l)) (blk4 m c t l)
  · exact congrArg₂ (· + ·) (Finset.sum_congr rfl fun q _ => congrArg₂ (· * ·) (H3 q) (blk7 m c t q l)) (blk8 m c t l)

/-- All fourteen shares together are the whole contraction over the inner axis. -/
theorem sum_shares (c : Dev nD) (r : Fin 4096) (k : Fin 16) :
    ∑ f : Fin 14336, gated (arr1 m c) (arr2 m c) (arr3 m c) (arr4 m c) (arr5 m c) (arr6 m c) (arr7 m c) (arr8 m c) (row (arr0 m c) r) f * arr9 m c (ix2 k f) = ∑ j ∈ Finset.range 14, share m c r k j := by
  rw [sum_tiles (show 14 * 1024 = 14336 from rfl), Finset.sum_range (fun j => share m c r k j)]
  refine Finset.sum_congr rfl fun j _ => ?_
  unfold share
  refine Finset.sum_congr rfl fun l _ => ?_
  have e : tile (show 14 * 1024 = 14336 from rfl) j l = colOf j.val l := Fin.ext (by
    show 1024 * j.val + l.val = (1024 * j.val + l.val) % 14336
    have := j.isLt; have := l.isLt; omega)
  rw [e]

/-- What the carried buffers hold after point `n`. -/
def Good (c : Dev nD) (n : ℕ) (h : n < cfg0.N) : Prop :=
  ∀ (p : Fin 256) (k : Fin 16),
    (outsAt0 m c n h).2.1 (ix2 p k) = down1 m c (rowOf n p) k
    ∧ (outsAt0 m c n h).2.2.1 (ix2 p k) = down3 m c (rowOf n p) k
    ∧ (outsAt0 m c n h).2.2.2 (ix2 p k) = ∑ j ∈ Finset.range (n % 14 + 1), share m c (rowOf n p) k j

/-- At a row block's first tile. -/
theorem good_first (c : Dev nD) (t : Fin cfg0.N) (h0 : t.val % 14 = 0) : Good m c t.val t.isLt := by
  have h1 : ¬t.val % 14 = 13 := by omega
  intro p k
  have e1 : (outsAt0 m c t.val t.isLt).2.1 = k0_pay4 (iblk m c 0 t) (iblk m c 1 t) (iblk m c 2 t) := by
    rw [outsAt0_A m c t h0 h1]
    dsimp only
    exact down1_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  have e3 : (outsAt0 m c t.val t.isLt).2.2.1 = k0_pay5 (iblk m c 0 t) (iblk m c 5 t) (iblk m c 6 t) := by
    rw [outsAt0_A m c t h0 h1]
    dsimp only
    exact down3_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  have e2 : (outsAt0 m c t.val t.isLt).2.2.2
      = k0_pay1 (k0_pay7 (k0_pay4 (iblk m c 0 t) (iblk m c 1 t) (iblk m c 2 t)) (k0_pay5 (iblk m c 0 t) (iblk m c 5 t) (iblk m c 6 t))
          (iblk m c 3 t) (iblk m c 7 t) (iblk m c 4 t) (iblk m c 8 t) (iblk m c 9 t)) (k0_pay6 (F := Ideal)) := by
    rw [outsAt0_A m c t h0 h1]
    dsimp only
    exact acc_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  have H1 : ∀ q : Fin 16, k0_pay4 (F := Ideal) (iblk m c 0 t) (iblk m c 1 t) (iblk m c 2 t) (ix2 p q) = down1 m c (rowOf t.val p) q :=
    fun q => (down1_apply (iblk m c 0 t) (iblk m c 1 t) (iblk m c 2 t) p q).trans
      (congrArg₂ (· + ·) (Finset.sum_congr rfl fun d _ => congrArg₂ (· * ·) (blk0 m c t p d) (blk1 m c t d q)) (blk2 m c t q))
  have H3 : ∀ q : Fin 16, k0_pay5 (F := Ideal) (iblk m c 0 t) (iblk m c 5 t) (iblk m c 6 t) (ix2 p q) = down3 m c (rowOf t.val p) q :=
    fun q => (down3_apply (iblk m c 0 t) (iblk m c 5 t) (iblk m c 6 t) p q).trans
      (congrArg₂ (· + ·) (Finset.sum_congr rfl fun d _ => congrArg₂ (· * ·) (blk0 m c t p d) (blk5 m c t d q)) (blk6 m c t q))
  refine ⟨(congrFun e1 _).trans (H1 k), (congrFun e3 _).trans (H3 k), ?_⟩
  rw [e2]
  refine (accum_apply _ _ p k).trans ?_
  refine (congrArg₂ (· + ·) (reset_apply p k) (share_eq m c t _ _ p k (rowOf t.val p) H1 H3)).trans ?_
  simp only [h0, zero_add, Finset.sum_range_one]

/-- At a later tile, from the point before. -/
theorem good_next (c : Dev nD) (t : Fin cfg0.N) (h0 : ¬t.val % 14 = 0)
    (ih : Good m c (t.val - 1) (Nat.lt_of_le_of_lt (Nat.sub_le _ _) t.isLt)) : Good m c t.val t.isLt := by
  intro p k
  have hr : rowOf (t.val - 1) p = rowOf t.val p := Fin.ext (by
    show (256 * ((t.val - 1) / 14) + p.val) % 4096 = (256 * (t.val / 14) + p.val) % 4096
    have : (t.val - 1) / 14 = t.val / 14 := by omega
    rw [this])
  have hj : (t.val - 1) % 14 + 1 = t.val % 14 := by omega
  have e1 : (outsAt0 m c t.val t.isLt).2.1 = (outsAt0 m c (t.val - 1) (Nat.lt_of_le_of_lt (Nat.sub_le _ _) t.isLt)).2.1 := by
    by_cases h1 : t.val % 14 = 13
    · rw [outsAt0_C m c t h0 h1]; dsimp only; rfl
    · rw [outsAt0_B m c t h0 h1]; dsimp only; rfl
  have e3 : (outsAt0 m c t.val t.isLt).2.2.1 = (outsAt0 m c (t.val - 1) (Nat.lt_of_le_of_lt (Nat.sub_le _ _) t.isLt)).2.2.1 := by
    by_cases h1 : t.val % 14 = 13
    · rw [outsAt0_C m c t h0 h1]; dsimp only; rfl
    · rw [outsAt0_B m c t h0 h1]; dsimp only; rfl
  have e2 : (outsAt0 m c t.val t.isLt).2.2.2
      = k0_pay1 (k0_pay7 (outsAt0 m c (t.val - 1) (Nat.lt_of_le_of_lt (Nat.sub_le _ _) t.isLt)).2.1 (outsAt0 m c (t.val - 1) (Nat.lt_of_le_of_lt (Nat.sub_le _ _) t.isLt)).2.2.1 (iblk m c 3 t) (iblk m c 7 t) (iblk m c 4 t) (iblk m c 8 t) (iblk m c 9 t)) (outsAt0 m c (t.val - 1) (Nat.lt_of_le_of_lt (Nat.sub_le _ _) t.isLt)).2.2.2 := by
    by_cases h1 : t.val % 14 = 13
    · rw [outsAt0_C m c t h0 h1]
      dsimp only
      exact acc_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    · rw [outsAt0_B m c t h0 h1]
      dsimp only
      exact acc_middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  have H1 : ∀ q : Fin 16, (outsAt0 m c (t.val - 1) (Nat.lt_of_le_of_lt (Nat.sub_le _ _) t.isLt)).2.1 (ix2 p q) = down1 m c (rowOf t.val p) q := fun q => by
    rw [← hr]; exact (ih p q).1
  have H3 : ∀ q : Fin 16, (outsAt0 m c (t.val - 1) (Nat.lt_of_le_of_lt (Nat.sub_le _ _) t.isLt)).2.2.1 (ix2 p q) = down3 m c (rowOf t.val p) q := fun q => by
    rw [← hr]; exact (ih p q).2.1
  refine ⟨(congrFun e1 _).trans (H1 k), (congrFun e3 _).trans (H3 k), ?_⟩
  rw [e2]
  refine (accum_apply _ _ p k).trans ?_
  refine (congrArg₂ (· + ·) (ih p k).2.2 (share_eq m c t _ _ p k (rowOf t.val p) H1 H3)).trans ?_
  rw [hr, hj]
  exact (Finset.sum_range_succ _ _).symm

/-- The statement depends on the point's number only. -/
theorem good_cast (c : Dev nD) {n n' : ℕ} (e : n = n') (h : n < cfg0.N) (h' : n' < cfg0.N) (g : Good m c n h) :
    Good m c n' h' := by
  subst e; exact g

/-- The point before point `n + 1` is point `n`. -/
theorem good_prev (c : Dev nD) (n : ℕ) (h : n + 1 < cfg0.N) (ih : Good m c n (Nat.lt_of_succ_lt h)) :
    Good m c ((⟨n + 1, h⟩ : Fin cfg0.N).val - 1) (Nat.lt_of_le_of_lt (Nat.sub_le _ _) (⟨n + 1, h⟩ : Fin cfg0.N).isLt) :=
  good_cast m c (Nat.add_sub_cancel (n := n) (m := 1)).symm _ _ ih

/-- A later tile, by its number. -/
theorem good_step (c : Dev nD) (n : ℕ) (h : n + 1 < cfg0.N) (h0 : ¬(n + 1) % 14 = 0)
    (ih : Good m c ((⟨n + 1, h⟩ : Fin cfg0.N).val - 1) (Nat.lt_of_le_of_lt (Nat.sub_le _ _) (⟨n + 1, h⟩ : Fin cfg0.N).isLt)) : Good m c (n + 1) h :=
  good_next m c ⟨n + 1, h⟩ h0 ih

/-- A first tile, by its number. -/
theorem good_reset (c : Dev nD) (n : ℕ) (h : n + 1 < cfg0.N) (h0 : (n + 1) % 14 = 0) : Good m c (n + 1) h :=
  good_first m c ⟨n + 1, h⟩ h0

/-- After every point. -/
theorem good (c : Dev nD) (n : ℕ) : ∀ h : n < cfg0.N, Good m c n h := by
  induction n with
  | zero => intro h; exact good_first m c ⟨0, h⟩ (Nat.zero_mod _)
  | succ n ih =>
    intro h
    by_cases h0 : (n + 1) % 14 = 0
    · exact good_reset m c n h h0
    · exact good_step m c n h h0 (good_prev m c n h (ih (Nat.lt_of_succ_lt h)))

/-- After a row block's last tile the result block holds the layer on the block's rows. -/
theorem out_at_last (c : Dev nD) (t : Fin cfg0.N) (h1 : t.val % 14 = 13) (p : Fin 256) (q : Fin 4096) :
    (outsAt0 m c t.val t.isLt).1 (ix2 p q) = layer (arr0 m c) (arr1 m c) (arr2 m c) (arr3 m c) (arr4 m c) (arr5 m c) (arr6 m c) (arr7 m c) (arr8 m c) (arr9 m c) (arr10 m c) (arr11 m c) (arr12 m c) (ix2 (rowOf t.val p) q) := by
  have h0 : ¬t.val % 14 = 0 := by omega
  have eo : (outsAt0 m c t.val t.isLt).1
      = k0_pay2 (k0_pay1 (k0_pay7 (outsAt0 m c (t.val - 1) (Nat.lt_of_le_of_lt (Nat.sub_le _ _) t.isLt)).2.1 (outsAt0 m c (t.val - 1) (Nat.lt_of_le_of_lt (Nat.sub_le _ _) t.isLt)).2.2.1 (iblk m c 3 t) (iblk m c 7 t) (iblk m c 4 t) (iblk m c 8 t) (iblk m c 9 t)) (outsAt0 m c (t.val - 1) (Nat.lt_of_le_of_lt (Nat.sub_le _ _) t.isLt)).2.2.2) (iblk m c 10 t) (iblk m c 11 t) (iblk m c 12 t) := by
    rw [outsAt0_C m c t h0 h1]
    dsimp only
    exact out_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  have ea : (outsAt0 m c t.val t.isLt).2.2.2 = (k0_pay1 (k0_pay7 (outsAt0 m c (t.val - 1) (Nat.lt_of_le_of_lt (Nat.sub_le _ _) t.isLt)).2.1 (outsAt0 m c (t.val - 1) (Nat.lt_of_le_of_lt (Nat.sub_le _ _) t.isLt)).2.2.1 (iblk m c 3 t) (iblk m c 7 t) (iblk m c 4 t) (iblk m c 8 t) (iblk m c 9 t)) (outsAt0 m c (t.val - 1) (Nat.lt_of_le_of_lt (Nat.sub_le _ _) t.isLt)).2.2.2) := by
    rw [outsAt0_C m c t h0 h1]
    dsimp only
    exact acc_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  rw [eo, layer_apply]
  refine (result_apply (k0_pay1 (k0_pay7 (outsAt0 m c (t.val - 1) (Nat.lt_of_le_of_lt (Nat.sub_le _ _) t.isLt)).2.1 (outsAt0 m c (t.val - 1) (Nat.lt_of_le_of_lt (Nat.sub_le _ _) t.isLt)).2.2.1 (iblk m c 3 t) (iblk m c 7 t) (iblk m c 4 t) (iblk m c 8 t) (iblk m c 9 t)) (outsAt0 m c (t.val - 1) (Nat.lt_of_le_of_lt (Nat.sub_le _ _) t.isLt)).2.2.2) (iblk m c 10 t) (iblk m c 11 t) (iblk m c 12 t) p q).trans ?_
  unfold layerRow lowRank
  refine congrArg (· * two) (congrArg₂ (· + ·)
    (Finset.sum_congr rfl fun k _ => congrArg₂ (· * ·) ?_ (blk11 m c t k q)) (blk12 m c t q))
  refine congrArg₂ (· + ·) ?_ (blk10 m c t k)
  refine (congrFun ea (ix2 p k)).symm.trans ?_
  refine ((good m c t.val t.isLt p k).2.2).trans ?_
  rw [h1]
  exact (sum_shares m c (rowOf t.val p) k).symm

end Cert.KernelIdeal.Inv

end
-- ==== Proof.KernelFinal.lean ====
/-
  The result array after the kernel's run is the layer of the argument arrays.

  The result's window is written back only after a row block's last tile, and then it writes that block's 256
  rows: the layer on those rows of the input.  The sixteen row blocks tile the 4096 rows, so every entry of
  the result array is written by exactly the write-back of its row block, and holds the layer's entry.
-/
import proofs.«125989_j4982162063462_1_alg».proof.Proof.Gen.KernelIdeal.Value
import proofs.«125989_j4982162063462_1_alg».proof.Proof.KernelInvariant

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Spec Cert.KernelIdeal.Blocks Cert.KernelIdeal.Inv

variable (m : (ℓ : Loc nD τ sig) → Buf (Elt Ideal) ℓ) (ρ : Dev nD → PrngReg)

/-- The layer of the thirteen argument arrays on device `c`. -/
abbrev result (c : Dev nD) : Mat 4096 4096 := layer (arr0 m c) (arr1 m c) (arr2 m c) (arr3 m c) (arr4 m c) (arr5 m c) (arr6 m c) (arr7 m c) (arr8 m c) (arr9 m c) (arr10 m c) (arr11 m c) (arr12 m c)

/-- What the write-back after a row block's last tile writes: the layer's entries on the block's rows. -/
theorem flushed_eq (c : Dev nD) (t : Fin cfg0.N) (hf : (cfg0.win 13).flush t = true) :
    (dats m 0 c).flushed 13 t = ((cfg0.win 13).blk t).view.read (Elt Ideal) (result m c) := by
  have h1 : t.val % 14 = 13 := (flush0_13 t).mp hf
  have hN : t.val < 224 := lt_of_lt_of_eq t.isLt (show cfg0.N = 224 from N_0)
  obtain ⟨e0, e1⟩ := idx13 t
  rw [Value.flushed13]
  funext y
  obtain ⟨p, q, rfl⟩ : ∃ (p : Fin 256) (q : Fin 4096), y = ix2 p q := ⟨y 0, y 1, eq_ix2 y⟩
  show (outsAt0 m c t.val t.isLt).1 (ix2 p q) = result m c (((cfg0.win 13).blk t).view.emb (ix2 p q))
  have he : ((cfg0.win 13).blk t).view.emb (ix2 p q) = ix2 (rowOf t.val p) q := funext fun ax => Fin.ext (by
    match ax with
    | ⟨0, _⟩ => show win0_13.index t (0 : Fin 2) * 256 + 1 * p.val = (256 * (t.val / 14) + p.val) % 4096; have := p.isLt; omega
    | ⟨1, _⟩ => show win0_13.index t (1 : Fin 2) * 4096 + 1 * q.val = q.val; omega)
  rw [he]
  exact out_at_last m c t h1 p q

/-- An index of the result array is in a point's block iff each coordinate is in the block's range. -/
theorem mem_blk13 (t : Fin cfg0.N) (i : S4096x4096.Idx) :
    i ∈ ((cfg0.win 13).blk t).view.set ↔ ∀ a : Fin 2, win0_13.index t a * S256x4096.size a ≤ (i a).val
      ∧ (i a).val < win0_13.index t a * S256x4096.size a + S256x4096.size a := by
  show i ∈ ((View.whole main_v12).slice (win0_13.rect t)).set ↔ _
  rw [View.set_slice_whole, Rect.mem_set_unit]
  exact Iff.rfl

/-- Every entry of the result array is in the block written back after its row block's last tile. -/
theorem cover (c : Dev nD) (i : S4096x4096.Idx) :
    ∃ t : Fin cfg0.N, (cfg0.win 13).flush t = true ∧ i ∈ ((cfg0.win 13).blk t).view.set := by
  have hi0 : (i 0).val < 4096 := (i 0).isLt
  have hi1 : (i 1).val < 4096 := (i 1).isLt
  have hN : cfg0.N = 224 := N_0
  have hb : 14 * ((i 0).val / 256) + 13 < cfg0.N := by rw [hN]; omega
  obtain ⟨e0, e1⟩ := idx13 ⟨14 * ((i 0).val / 256) + 13, hb⟩
  have e0' : win0_13.index ⟨14 * ((i 0).val / 256) + 13, hb⟩ (0 : Fin 2) = (14 * ((i 0).val / 256) + 13) / 14 := e0
  refine ⟨⟨14 * ((i 0).val / 256) + 13, hb⟩, (flush0_13 _).mpr (by show (14 * ((i 0).val / 256) + 13) % 14 = 13; omega), ?_⟩
  rw [mem_blk13]
  intro a
  match a with
  | ⟨0, _⟩ =>
    show win0_13.index ⟨14 * ((i 0).val / 256) + 13, hb⟩ (0 : Fin 2) * 256 ≤ (i 0).val
      ∧ (i 0).val < win0_13.index ⟨14 * ((i 0).val / 256) + 13, hb⟩ (0 : Fin 2) * 256 + 256
    rw [e0']; omega
  | ⟨1, _⟩ =>
    show win0_13.index ⟨14 * ((i 0).val / 256) + 13, hb⟩ (1 : Fin 2) * 4096 ≤ (i 1).val
      ∧ (i 1).val < win0_13.index ⟨14 * ((i 0).val / 256) + 13, hb⟩ (1 : Fin 2) * 4096 + 4096
    rw [e1]; omega

/-- The result array after the run. -/
theorem final (c : Dev nD) : (dats m 0 c).arrAt 13 cfg0.N = result m c :=
  (dats m 0 c).arrAt_eq_of_cover 13 (result m c) (flushed_eq m c) (cover c)

/-- The run: the result array ends at the layer of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelIdeal.Final

end
-- ==== Proof.RefIsLayer.lean ====
/-
  The reference computes the layer.

  Its program is the layer written over whole arrays: for each of the three low-rank maps a product with the
  transposed down-projection, the bias added to every row, a product with the transposed up-projection, the
  bias, the scale; between the second and the third, `g · (1 / (1 + e^(-g)))` of the first map's result times
  the second map's result, entry by entry.  Read at row r and column c, each product is the sum over its shared
  axis and each bias the entry of its vector, so the result is the layer on row r of the input, at c.
-/
import proofs.«125989_j4982162063462_1_alg».proof.Proof.Gen.ReferenceIdeal.Run
import proofs.«125989_j4982162063462_1_alg».proof.Proof.LibLowRank

noncomputable section

namespace Cert.ReferenceIdeal.RefValue

open Cert.ReferenceIdeal Cert.ReferenceIdeal.Facts₀ Idealize.ShloMosaic Idealize.ShloMosaic.ValueIdx
open Cert.RowOps Cert.LowRank Cert.Spec

theorem plain_down : IsPlain dot_S4096x4096_S4096x16_S4096x16_1_0_0_1_n_n := ⟨rfl, rfl, rfl, rfl, rfl, rfl⟩
theorem plain_up : IsPlain dot_S4096x16_S16x14336_S4096x14336_1_0_0_1_n_n := ⟨rfl, rfl, rfl, rfl, rfl, rfl⟩
theorem plain_down2 : IsPlain dot_S4096x14336_S14336x16_S4096x16_1_0_0_1_n_n := ⟨rfl, rfl, rfl, rfl, rfl, rfl⟩
theorem plain_up2 : IsPlain dot_S4096x16_S16x4096_S4096x4096_1_0_0_1_n_n := ⟨rfl, rfl, rfl, rfl, rfl, rfl⟩

/-- The reference's result, as a term of its thirteen arguments, is the layer of them. -/
theorem ref_is_layer (x0 : FVec Ideal S4096x4096 .f32) (x1 : FVec Ideal S16x4096 .f32) (x2 : FVec Ideal S16 .f32) (x3 : FVec Ideal S14336x16 .f32) (x4 : FVec Ideal S14336 .f32) (x5 : FVec Ideal S16x4096 .f32) (x6 : FVec Ideal S16 .f32) (x7 : FVec Ideal S14336x16 .f32) (x8 : FVec Ideal S14336 .f32) (x9 : FVec Ideal S16x14336 .f32) (x10 : FVec Ideal S16 .f32) (x11 : FVec Ideal S4096x16 .f32) (x12 : FVec Ideal S4096 .f32) :
    (mulf (addf (Host.dotGeneral dot_S4096x16_S16x4096_S4096x4096_1_0_0_1_n_n none (addf (Host.dotGeneral dot_S4096x14336_S14336x16_S4096x16_1_0_0_1_n_n none (mulf (mulf (mulf (addf (Host.dotGeneral dot_S4096x16_S16x14336_S4096x14336_1_0_0_1_n_n none (addf (Host.dotGeneral dot_S4096x4096_S4096x16_S4096x16_1_0_0_1_n_n none x0 (transpose S4096x16 [1, 0] x1 transposes_S16x4096_S4096x16_1_0)) (broadcastInDim S4096x16 ![0, 1] bcast_S1x16_S4096x16_0_1 (broadcastInDim S1x16 ![1] bcast_S16_S1x16_1 x2))) (transpose S16x14336 [1, 0] x3 transposes_S14336x16_S16x14336_1_0)) (broadcastInDim S4096x14336 ![0, 1] bcast_S1x14336_S4096x14336_0_1 (broadcastInDim S1x14336 ![1] bcast_S14336_S1x14336_1 x4))) (broadcastInDim S4096x14336 ![] bcast_S_S4096x14336 (constant (F := Ideal) S_ .f32 0x40000000#32))) (Host.divf (broadcastInDim S4096x14336 ![] bcast_S_S4096x14336 (constant (F := Ideal) S_ .f32 0x3F800000#32)) (addf (broadcastInDim S4096x14336 ![] bcast_S_S4096x14336 (constant (F := Ideal) S_ .f32 0x3F800000#32)) (Host.exp (Host.negf (mulf (addf (Host.dotGeneral dot_S4096x16_S16x14336_S4096x14336_1_0_0_1_n_n none (addf (Host.dotGeneral dot_S4096x4096_S4096x16_S4096x16_1_0_0_1_n_n none x0 (transpose S4096x16 [1, 0] x1 transposes_S16x4096_S4096x16_1_0)) (broadcastInDim S4096x16 ![0, 1] bcast_S1x16_S4096x16_0_1 (broadcastInDim S1x16 ![1] bcast_S16_S1x16_1 x2))) (transpose S16x14336 [1, 0] x3 transposes_S14336x16_S16x14336_1_0)) (broadcastInDim S4096x14336 ![0, 1] bcast_S1x14336_S4096x14336_0_1 (broadcastInDim S1x14336 ![1] bcast_S14336_S1x14336_1 x4))) (broadcastInDim S4096x14336 ![] bcast_S_S4096x14336 (constant (F := Ideal) S_ .f32 0x40000000#32)))))))) (mulf (addf (Host.dotGeneral dot_S4096x16_S16x14336_S4096x14336_1_0_0_1_n_n none (addf (Host.dotGeneral dot_S4096x4096_S4096x16_S4096x16_1_0_0_1_n_n none x0 (transpose S4096x16 [1, 0] x5 transposes_S16x4096_S4096x16_1_0)) (broadcastInDim S4096x16 ![0, 1] bcast_S1x16_S4096x16_0_1 (broadcastInDim S1x16 ![1] bcast_S16_S1x16_1 x6))) (transpose S16x14336 [1, 0] x7 transposes_S14336x16_S16x14336_1_0)) (broadcastInDim S4096x14336 ![0, 1] bcast_S1x14336_S4096x14336_0_1 (broadcastInDim S1x14336 ![1] bcast_S14336_S1x14336_1 x8))) (broadcastInDim S4096x14336 ![] bcast_S_S4096x14336 (constant (F := Ideal) S_ .f32 0x40000000#32)))) (transpose S14336x16 [1, 0] x9 transposes_S16x14336_S14336x16_1_0)) (broadcastInDim S4096x16 ![0, 1] bcast_S1x16_S4096x16_0_1 (broadcastInDim S1x16 ![1] bcast_S16_S1x16_1 x10))) (transpose S16x4096 [1, 0] x11 transposes_S4096x16_S16x4096_1_0)) (broadcastInDim S4096x4096 ![0, 1] bcast_S1x4096_S4096x4096_0_1 (broadcastInDim S1x4096 ![1] bcast_S4096_S1x4096_1 x12))) (broadcastInDim S4096x4096 ![] bcast_S_S4096x4096 (constant (F := Ideal) S_ .f32 0x40000000#32)) : FVec Ideal S4096x4096 .f32)
      = layer x0 x1 x2 x3 x4 x5 x6 x7 x8 x9 x10 x11 x12 := by
  funext i
  obtain ⟨r, c, rfl⟩ : ∃ (r : Fin 4096) (c : Fin 4096), i = ix2 r c := ⟨i 0, i 1, eq_ix2 i⟩
  rw [layer_apply]
  refine (hostLowRank_apply plain_down2 plain_up2 _ x9 x10 x11 x12 _ _ _ _ _ _ _ r c).trans ?_
  refine congrArg (fun h => lowRank x9 x10 x11 x12 h c) (funext fun f => ?_)
  refine (mulf_apply _ _ _).trans ?_
  exact congrArg₂ (· * ·)
    ((hostSilu_apply _ _ _ _).trans
      (congrArg silu (hostLowRank_apply plain_down plain_up x0 x1 x2 x3 x4 _ _ _ _ _ _ _ r f)))
    (hostLowRank_apply plain_down plain_up x0 x5 x6 x7 x8 _ _ _ _ _ _ _ r f)

end Cert.ReferenceIdeal.RefValue

end
-- ==== Proof.lean ====
/-
  A gated feed-forward layer with low-rank linear maps, computed tile by tile, against the same layer computed
  over whole arrays.

  Each of the layer's three linear maps is `x ↦ ((x · Aᵀ + a) · Bᵀ + b) · 2` with a 16-column inner projection; the
  layer is `lowRank₂ (g · σ(g) · u)` with `g = lowRank₁ x`, `u = lowRank₃ x`, row by row over 4096 rows.  The
  reference computes it over whole arrays.  The kernel keeps a block of 256 rows on chip: it projects the block
  down once, walks the 14336 inner coordinates in 14 tiles of 1024, forms each tile's gated product and adds
  its contraction with the matching rows of `A₂ᵀ` to a 256 × 16 accumulator started at zero, and after the last
  tile applies the remaining bias, up-projection and scale.  On the extended reals a change of float format is
  the identity, a product into a zero accumulator and the host's product are the same sum, the logistic
  function is `1 / (1 + e^(-g))` in either spelling, and a sum over 14336 indices is the sum over the tiles of
  the sums within each tile, because addition is commutative and associative — no finiteness is used.  So both
  programs end with the same array, entry by entry.  The ideal pass rewrote nothing, so the kernel's
  idealization is the kernel's own text read on the extended reals.
-/
import proofs.«125989_j4982162063462_1_alg».proof.Defs
import proofs.«125989_j4982162063462_1_alg».proof.Proof.Gen.Kernel
import proofs.«125989_j4982162063462_1_alg».proof.Proof.Gen.Kernel.Skeleton
import proofs.«125989_j4982162063462_1_alg».proof.Proof.Gen.Kernel.Launch
import proofs.«125989_j4982162063462_1_alg».proof.Proof.Gen.Kernel.Points
import proofs.«125989_j4982162063462_1_alg».proof.Proof.Gen.Kernel.Frame
import proofs.«125989_j4982162063462_1_alg».proof.Proof.Gen.KernelIdeal
import proofs.«125989_j4982162063462_1_alg».proof.Proof.Gen.KernelIdeal.Skeleton
import proofs.«125989_j4982162063462_1_alg».proof.Proof.Gen.KernelIdeal.Launch
import proofs.«125989_j4982162063462_1_alg».proof.Proof.Gen.KernelIdeal.Points
import proofs.«125989_j4982162063462_1_alg».proof.Proof.Gen.KernelIdeal.Frame
import proofs.«125989_j4982162063462_1_alg».proof.Proof.Gen.ReferenceIdeal
import proofs.«125989_j4982162063462_1_alg».proof.Proof.Gen.Pre_finite_inputs
import proofs.«125989_j4982162063462_1_alg».proof.Proof.Gen.KernelIdeal.Value
import proofs.«125989_j4982162063462_1_alg».proof.Proof.Gen.ReferenceIdeal.Run
import proofs.«125989_j4982162063462_1_alg».proof.Proof.KernelFinal
import proofs.«125989_j4982162063462_1_alg».proof.Proof.RefIsLayer
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel and its reading on the extended reals. -/
theorem preserves : Cert.preserves_Kernel_KernelIdeal := trivial

/-- From memories agreeing on the thirteen arguments, the kernel's result array and the reference's both end at
    the layer of those arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [a0, a1, a2, a3, a4, a5, a6, a7, a8, a9, a10, a11, a12]
  exact Cert.ReferenceIdeal.RefValue.ref_is_layer _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
